-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x2 .f32) (main_arg1 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192x2 : Shape := ⟨2, ![8192, 2]⟩
abbrev S_ : Shape := ⟨0, ![]⟩
abbrev S2x8192 : Shape := ⟨2, ![2, 8192]⟩
abbrev S1x1 : Shape := ⟨2, ![1, 1]⟩
abbrev S512x2 : Shape := ⟨2, ![512, 2]⟩
abbrev S2x512 : Shape := ⟨2, ![2, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 12
  | .vmem => 6
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x2, .f32⟩
  | .hbm, ⟨3, _⟩ => ⟨S8192x2, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192, .f32⟩
  | .hbm, ⟨9, _⟩ => ⟨S1x1, .f32⟩
  | .hbm, ⟨10, _⟩ => ⟨S_, .f32⟩
  | .hbm, ⟨11, _⟩ => ⟨S_, .f32⟩
  | .local _ .vmem, ⟨0, _⟩ => ⟨S512x2, .f32⟩
  | .local _ .vmem, ⟨1, _⟩ => ⟨S512x2, .f32⟩
  | .local _ .vmem, ⟨2, _⟩ => ⟨S2x512, .f32⟩
  | .local _ .vmem, ⟨3, _⟩ => ⟨S2x512, .f32⟩
  | .local _ .vmem, ⟨4, _⟩ => ⟨S1x1, .f32⟩
  | .local _ .vmem, ⟨5, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v8 : BitVec 1 := Scalar.cmpi .eq arg0 c15_i32
  let arg1 : BitVec 32 := BitVec.ofNat 32 (i 1).val
  let c15_i32_3 : BitVec 32 := 15#32
  let v9 : BitVec 1 := Scalar.cmpi .eq arg1 c15_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  reducesTo_S8192x2_S_d0_1 : S8192x2.ReducesTo [0, 1] S_
  h_S_ : 0 < S_.numel
  transposes_S8192x2_S2x8192_1_0 : S8192x2.Transposes [1, 0] S2x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2_S512x2_0_0 : ∀ a, (![0, 0] : Fin 2 → Nat) a + S512x2.size a ≤ S512x2.size a
  h_S512x2 : 0 < S512x2.numel
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S512x2_o0_0_S512x1 : S512x2.Slices ![0, 0] S512x1
  slices_S512x2_o0_1_S512x1 : S512x2.Slices ![0, 1] S512x1
  slices_S2x512_o0_0_S1x512 : S2x512.Slices ![0, 0] S1x512
  slices_S2x512_o1_0_S1x512 : S2x512.Slices ![1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x8192.size a
  hwx0_1 : ∀ i : grid0.Coords, EltTy.bits .f32 = 32 ∨ (Rect.block (s := S2x8192) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x2, .f32⟩
  | .hbm, ⟨3, _⟩ => ⟨S8192x2, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S2x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .i1⟩
  | .hbm, ⟨23, _⟩ => ⟨S8192x8192, .i1⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .i1⟩
  | .hbm, ⟨31, _⟩ => ⟨S8192x8192, .i1⟩
  | .hbm, ⟨32, _⟩ => ⟨S8192x8192, .i1⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_call2_v0 : Ref sig .tc := ⟨.hbm, 49, rfl⟩
abbrev main_call2_v1 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]

class Facts₀ : Prop where
  reducesTo_S8192x2_S_d0_1 : S8192x2.ReducesTo [0, 1] S_
  h_S_ : 0 < S_.numel
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S_d0_1 : S8192x8192.ReducesTo [0, 1] S_
  dot_S8192x2_S2x8192_S8192x8192_1_0_0_1_n_n_wf : DotDims.WF S8192x2 S2x8192 S8192x8192 [1] [0] [0] [1] [] []

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf

class Facts : Prop extends Facts₀ where

variable [Facts]
-- ==== Proof.KernelCases.lean ====
/-
  The grid of the pairwise-penalty kernel is 16 x 16 tiles (i, j) of 512 x 512 pairs, visited row by row.
  The body has three guarded parts: at the first tile (i = 0 and j = 0) the 1 x 1 accumulator is zeroed; at a
  tile on or above the diagonal (j >= i) the tile's sum is added to the accumulator; at the last tile
  (i = 15 and j = 15) the accumulator is copied to the 1 x 1 output block.  This module names the three
  conditions, decides over the 256 tiles how they combine (the first and the last tile are on the diagonal,
  the first is not the last), and where the output window is idle (everywhere but at the last tile, the only
  tile after which its block is written back).
-/
import proofs.«162059_j3315714753089_1_alg».proof.Proof.Gen.Kernel.Frame
import proofs.«162059_j3315714753089_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, from the tile's coordinates -/

/-- The first tile: `i = 0` and `j = 0`, as the body computes it. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- A tile on or above the diagonal: `j >= i` (signed), as the body computes it. -/
abbrev onUpper (i : grid0.Coords) : Prop :=
  (Scalar.cmpi .ne (Scalar.extui (Scalar.cmpi .sge (BitVec.ofNat 32 (i 1).val) (BitVec.ofNat 32 (i 0).val))) 0#32) = 1#1
/-- The last tile: `i = 15` and `j = 15`. -/
abbrev atLast (i : grid0.Coords) : Prop := k0_cond3 i = 1#1

/-- The first tile is the point 0. -/
theorem atFirst_iff : ∀ t : Fin cfg0.N, atFirst (grid0.coords t) ↔ t.val = 0 :=
  (by decide +kernel : ∀ t : Fin grid0.N, atFirst (grid0.coords t) ↔ t.val = 0)
/-- The last tile is the point 255. -/
theorem atLast_iff : ∀ t : Fin cfg0.N, atLast (grid0.coords t) ↔ t.val = 255 :=
  (by decide +kernel : ∀ t : Fin grid0.N, atLast (grid0.coords t) ↔ t.val = 255)
/-- A tile is on or above the diagonal when its column is at least its row. -/
theorem onUpper_iff : ∀ t : Fin cfg0.N, onUpper (grid0.coords t) ↔ t.val / 16 ≤ t.val % 16 :=
  (by decide +kernel : ∀ t : Fin grid0.N, onUpper (grid0.coords t) ↔ t.val / 16 ≤ t.val % 16)
/-- The first tile is on the diagonal. -/
theorem upper_of_first (t : Fin cfg0.N) (h : atFirst (grid0.coords t)) : onUpper (grid0.coords t) := by
  rw [onUpper_iff]; rw [atFirst_iff] at h; omega
/-- So is the last. -/
theorem upper_of_last (t : Fin cfg0.N) (h : atLast (grid0.coords t)) : onUpper (grid0.coords t) := by
  rw [onUpper_iff]; rw [atLast_iff] at h; omega
/-- The first tile is not the last. -/
theorem not_last_of_first (t : Fin cfg0.N) (h : atFirst (grid0.coords t)) : ¬atLast (grid0.coords t) := by
  rw [atLast_iff]; rw [atFirst_iff] at h; omega

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last tile the body stores nothing into the output block: the window is idle there, -/
theorem idle_2 : ∀ t : Fin cfg0.N, ¬atLast (grid0.coords t) → cfg0.idle 2 (grid0.coords t) = true := by decide +kernel
/-- and its block is not written back. -/
theorem noFlush_2 : ∀ t : Fin cfg0.N, ¬atLast (grid0.coords t) → (cfg0.win 2).flush t = false := by decide +kernel
/-- At the last tile it is live. -/
theorem live_2 : ∀ t : Fin cfg0.N, atLast (grid0.coords t) → cfg0.idle 2 (grid0.coords t) = false := by decide +kernel

/-! ## The memrefs the body is called with -/

/-- One staging buffer of the output window, through which its contents are stated. -/
abbrev outView : View sig .tc .vmem S1x1 .f32 := (Memref.whole cc0_stg2_0 : Memref sig .tc .vmem S1x1 .f32).view
abbrev stg0 (t : Fin cfg0.N) : Memref sig .tc .vmem S512x2 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S2x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1 .f32 := win0_2.stage (cfg0.slots t 2)
abbrev hstg2 (t : Fin cfg0.N) : (stg2 t).IsWhole := hstage0_2 ((cfg0.slots t 2).cast nbuf0_2)
/-- The accumulator: a whole scoped buffer of the kernel's own. -/
abbrev accM : Memref sig .tc .vmem S1x1 .f32 := Memref.whole cc0_scratch0
abbrev accView : View sig .tc .vmem S1x1 .f32 := accM.view

/-- What the region hands the body besides the windows: the accumulator at some contents, and the generator register. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.KernelRunFirst.lean ====
/-
  The body at the first tile: the accumulator is zeroed, the tile's sum added to it, nothing stored into the
  output block.  The run names what the accumulator's buffer ends with: the two stores, last first.
-/
import proofs.«162059_j3315714753089_1_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first tile, on whole memrefs — the two input blocks at their contents, the output block at contents it
    hands back untouched, the accumulator at anything — the body runs to a state holding the inputs and the output as
    they were and the accumulator with its stores written (`LS`, found by the run). -/
noncomputable def runFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, fun xo E K => ?run⟩
  case run =>
    simp only [cc0__prox_kernel_eq_skeleton]; unfold cc0__prox_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KernelRunUpper.lean ====
/-
  The body at a later tile on or above the diagonal that is not the last: the tile's sum is added to what the
  accumulator held, nothing stored into the output block.
-/
import proofs.«162059_j3315714753089_1_alg».proof.Proof.KernelRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator enters at `xs` (what the tile before left) and ends with one store written. -/
noncomputable def runUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, fun xo E K => ?run⟩
  case run =>
    simp only [cc0__prox_kernel_eq_skeleton]; unfold cc0__prox_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KernelRunBelow.lean ====
/-
  The body at a tile below the diagonal: none of the three parts runs, no buffer is touched.
-/
import proofs.«162059_j3315714753089_1_alg».proof.Proof.KernelRunUpper

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Whatever the body is handed, it hands back. -/
theorem runBelow (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : ¬onUpper i) (h2 : ¬atLast i) (R : sProp 𝕄) (E : Set ℕ) (K : PUnit → sProp 𝕄) :
    iprop(R ∗ (R -∗ K ⟨⟩)) ⊢ wp frame (wpE (defs₀ (F := F)) Variants.none c none) E (cc0__prox_kernel i arg2 harg2 arg3 harg3 arg4 harg4 arg5 harg5) K := by
  simp only [cc0__prox_kernel_eq_skeleton]; unfold cc0__prox_kernel_skel
  iintro ⟨HR, Hk⟩
  sl_exec (disch := first | exact h0 | exact h1 | exact h2)
  sl_step
  iapply Hk
  iexact HR

end Cert.Kernel.Body

end
-- ==== Proof.KernelRunLast.lean ====
/-
  The body at the last tile: the tile's sum is added to the accumulator, and the accumulator copied into the
  output block.
-/
import proofs.«162059_j3315714753089_1_alg».proof.Proof.KernelRunBelow

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The accumulator enters at `xs`, the output block at anything; both end with their stores written (`LS`, `LO`). -/
noncomputable def runLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, ?_, fun E K => ?run⟩
  case run =>
    simp only [cc0__prox_kernel_eq_skeleton]; unfold cc0__prox_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Body

end
-- ==== Proof.KernelFrame.lean ====
/-
  The frame of the pairwise-penalty kernel's program: every weakly fair execution ends, faults nowhere and
  leaves the two argument arrays as they were.

  What the 1 x 1 accumulator holds after each tile is defined by recursion along the 256 tiles in the order
  the grid visits them (`accAt`): after the first tile what the first tile's run leaves; after a later tile on
  or above the diagonal what that tile's run leaves over the contents before it; after a tile below the
  diagonal what it held before.  The output block is stored at the last tile only (`outAt`).  With these as
  the proof data of the one pipeline, the body's triple at every tile is one of the four runs, chosen by the
  tile's three conditions.
-/
import proofs.«162059_j3315714753089_1_alg».proof.Proof.KernelRunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- The first tile's two stores cover the accumulator. -/
theorem coverFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) (y : S1x1.Idx) :
    ∃ pc ∈ (runFirst c i arg2 harg2 arg3 harg3 arg4 harg4 arg5 harg5 h0 h1 h2 x0 x1).1, y ∈ pc.1.set :=
  View.cover_of_tiledL (runFirst c i arg2 harg2 arg3 harg3 arg4 harg4 arg5 harg5 h0 h1 h2 x0 x1).1 S1x1.size (by sl_kernel_rfl) y
/-- What the first tile leaves in the accumulator. -/
def accFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) : Vec F S1x1 .f32 :=
  accView.read (Elt F) (accView.writes (Elt F) accView.junk (runFirst c i arg2 harg2 arg3 harg3 arg4 harg4 arg5 harg5 h0 h1 h2 x0 x1).1)

/-- A later upper tile's store covers the accumulator. -/
theorem coverUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) (y : S1x1.Idx) :
    ∃ pc ∈ (runUpper c i arg2 harg2 arg3 harg3 arg4 harg4 arg5 harg5 h0 h1 h2 x0 x1 xs).1, y ∈ pc.1.set :=
  View.cover_of_tiledL (runUpper c i arg2 harg2 arg3 harg3 arg4 harg4 arg5 harg5 h0 h1 h2 x0 x1 xs).1 S1x1.size (by sl_kernel_rfl) y
/-- What it leaves there. -/
def accUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) : Vec F S1x1 .f32 :=
  accView.read (Elt F) (accView.writes (Elt F) accView.junk (runUpper c i arg2 harg2 arg3 harg3 arg4 harg4 arg5 harg5 h0 h1 h2 x0 x1 xs).1)

/-- The last tile's store covers the accumulator, -/
theorem coverLastAcc (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) (y : S1x1.Idx) :
    ∃ pc ∈ (runLast c i arg2 harg2 arg3 harg3 arg4 harg4 arg5 harg5 h0 h1 h2 x0 x1 xs).2.1, y ∈ pc.1.set :=
  View.cover_of_tiledL (runLast c i arg2 harg2 arg3 harg3 arg4 harg4 arg5 harg5 h0 h1 h2 x0 x1 xs).2.1 S1x1.size (by sl_kernel_rfl) y
/-- and its copy covers the output block. -/
theorem coverLastOut (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) (y : S1x1.Idx) :
    ∃ pc ∈ (runLast c i arg2 harg2 arg3 harg3 arg4 harg4 arg5 harg5 h0 h1 h2 x0 x1 xs).1, y ∈ pc.1.set :=
  View.cover_of_tiledL (runLast c i arg2 harg2 arg3 harg3 arg4 harg4 arg5 harg5 h0 h1 h2 x0 x1 xs).1 S1x1.size (by sl_kernel_rfl) y
/-- What the last tile leaves in the accumulator, -/
def accLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) : Vec F S1x1 .f32 :=
  accView.read (Elt F) (accView.writes (Elt F) accView.junk (runLast c i arg2 harg2 arg3 harg3 arg4 harg4 arg5 harg5 h0 h1 h2 x0 x1 xs).2.1)
/-- and in the output block. -/
def outLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) : Vec F S1x1 .f32 :=
  outView.read (Elt F) (outView.writes (Elt F) outView.junk (runLast c i arg2 harg2 arg3 harg3 arg4 harg4 arg5 harg5 h0 h1 h2 x0 x1 xs).1)

/-! ## The accumulator tile by tile -/

theorem not_first_succ (n : ℕ) (hn : n + 1 < cfg0.N) : ¬atFirst (grid0.coords ⟨n + 1, hn⟩) :=
  fun h => Nat.succ_ne_zero n ((atFirst_iff ⟨n + 1, hn⟩).mp h)

/-- The accumulator after the tile at position `n`. -/
def accAt (c : Dev nD) : (n : ℕ) → n < cfg0.N → Vec F S1x1 .f32
  | 0, hn => accFirst c (grid0.coords ⟨0, hn⟩) (stg0 ⟨0, hn⟩) (hstg0 ⟨0, hn⟩) (stg1 ⟨0, hn⟩) (hstg1 ⟨0, hn⟩) (stg2 ⟨0, hn⟩) (hstg2 ⟨0, hn⟩) accM (Memref.isWhole_whole _) ((atFirst_iff ⟨0, hn⟩).mpr rfl) (upper_of_first _ ((atFirst_iff ⟨0, hn⟩).mpr rfl)) (not_last_of_first _ ((atFirst_iff ⟨0, hn⟩).mpr rfl)) (iblk m c 0 ⟨0, hn⟩) (iblk m c 1 ⟨0, hn⟩)
  | n + 1, hn =>
    if h1 : onUpper (grid0.coords ⟨n + 1, hn⟩) then
      if h2 : atLast (grid0.coords ⟨n + 1, hn⟩) then
        accLast c (grid0.coords ⟨n + 1, hn⟩) (stg0 ⟨n + 1, hn⟩) (hstg0 ⟨n + 1, hn⟩) (stg1 ⟨n + 1, hn⟩) (hstg1 ⟨n + 1, hn⟩) (stg2 ⟨n + 1, hn⟩) (hstg2 ⟨n + 1, hn⟩) accM (Memref.isWhole_whole _) (not_first_succ n hn) h1 h2 (iblk m c 0 ⟨n + 1, hn⟩) (iblk m c 1 ⟨n + 1, hn⟩) (accAt c n (Nat.lt_of_succ_lt hn))
      else
        accUpper c (grid0.coords ⟨n + 1, hn⟩) (stg0 ⟨n + 1, hn⟩) (hstg0 ⟨n + 1, hn⟩) (stg1 ⟨n + 1, hn⟩) (hstg1 ⟨n + 1, hn⟩) (stg2 ⟨n + 1, hn⟩) (hstg2 ⟨n + 1, hn⟩) accM (Memref.isWhole_whole _) (not_first_succ n hn) h1 h2 (iblk m c 0 ⟨n + 1, hn⟩) (iblk m c 1 ⟨n + 1, hn⟩) (accAt c n (Nat.lt_of_succ_lt hn))
    else accAt c n (Nat.lt_of_succ_lt hn)

theorem pred_lt (t : Fin cfg0.N) : t.val - 1 < cfg0.N := Nat.lt_of_le_of_lt (Nat.sub_le _ _) t.isLt

theorem accAt_first (c : Dev nD) (t : Fin cfg0.N) (h0 : atFirst (grid0.coords t)) (h1 : onUpper (grid0.coords t)) (h2 : ¬atLast (grid0.coords t)) :
    accAt m c t.val t.isLt = accFirst c (grid0.coords t) (stg0 t) (hstg0 t) (stg1 t) (hstg1 t) (stg2 t) (hstg2 t) accM (Memref.isWhole_whole _) h0 h1 h2 (iblk m c 0 t) (iblk m c 1 t) := by
  obtain ⟨n, hn⟩ := t
  cases n with
  | zero => exact rfl
  | succ n => exact absurd h0 (not_first_succ n hn)

theorem accAt_upper (c : Dev nD) (t : Fin cfg0.N) (h0 : ¬atFirst (grid0.coords t)) (h1 : onUpper (grid0.coords t)) (h2 : ¬atLast (grid0.coords t)) :
    accAt m c t.val t.isLt = accUpper c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) := by
  obtain ⟨n, hn⟩ := t
  cases n with
  | zero => exact absurd ((atFirst_iff ⟨0, hn⟩).mpr rfl) h0
  | succ n => exact (dif_pos h1).trans ((dif_neg h2).trans rfl)

theorem accAt_last (c : Dev nD) (t : Fin cfg0.N) (h0 : ¬atFirst (grid0.coords t)) (h1 : onUpper (grid0.coords t)) (h2 : atLast (grid0.coords t)) :
    accAt m c t.val t.isLt = accLast c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) := by
  obtain ⟨n, hn⟩ := t
  cases n with
  | zero => exact absurd ((atFirst_iff ⟨0, hn⟩).mpr rfl) h0
  | succ n => exact (dif_pos h1).trans ((dif_pos h2).trans rfl)

theorem accAt_below (c : Dev nD) (t : Fin cfg0.N) (h0 : ¬atFirst (grid0.coords t)) (h1 : ¬onUpper (grid0.coords t)) :
    accAt m c t.val t.isLt = accAt m c (t.val - 1) (pred_lt t) := by
  obtain ⟨n, hn⟩ := t
  cases n with
  | zero => exact absurd ((atFirst_iff ⟨0, hn⟩).mpr rfl) h0
  | succ n => exact (dif_neg h1).trans rfl

/-- The output block after the tile `t`: at the last tile the accumulator's copy; elsewhere the block is idle and this value
    is consulted by nothing. -/
def outAt (c : Dev nD) (t : Fin cfg0.N) : Vec F S1x1 .f32 :=
  if h2 : atLast (grid0.coords t) then
    outLast c (grid0.coords t) (stg0 t) (hstg0 t) (stg1 t) (hstg1 t) (stg2 t) (hstg2 t) accM (Memref.isWhole_whole _) (fun h => not_last_of_first t h h2) (upper_of_last t h2) h2 (iblk m c 0 t) (iblk m c 1 t) (accAt m c (t.val - 1) (pred_lt t))
  else outView.read (Elt F) outView.junk

theorem outAt_last (c : Dev nD) (t : Fin cfg0.N) (h0 : ¬atFirst (grid0.coords t)) (h1 : onUpper (grid0.coords t)) (h2 : atLast (grid0.coords t)) :
    outAt m c t = outLast c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) :=
  (dif_pos h2).trans rfl

/-! ## The region's invariant and the proof data -/

/-- Before position `n`: at the start what the region hands the body; afterwards the accumulator at what the tile before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any tile: the two input buffers hold their blocks; the tile's conditions select the run; the
    invariant hands the run the accumulator (at anything before the first tile, else at what the tile before left) and
    takes it back at this tile's contents; away from the last tile the idle output block is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  by_cases h1 : onUpper (grid0.coords t)
  · by_cases h2 : atLast (grid0.coords t)
    · have h0 : ¬atFirst (grid0.coords t) := fun h => not_last_of_first t h h2
      have hz : t.val ≠ 0 := fun h => h0 ((atFirst_iff t).mpr h)
      rw [show (dats m 0 c).leavesExact 2 t = owns (c : Thread nD τ) (stg2 t) fullShare ((dats m 0 c).after 2 t) from by
        unfold Dat.leavesExact; rw [live_2 t h2], after_2]
      rw [accAt_last m c t h0 h1 h2, outAt_last m c t h0 h1 h2]
      unfold accLast outLast; (try dsimp only)
      rw [Phi_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ h0 h1 h2 (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _ _)
    · rw [Dat.leavesExact_idle (dats m 0 c) 2 t (idle_2 t h2) (noFlush_2 t h2)]
      by_cases h0 : atFirst (grid0.coords t)
      · have hz : t.val = 0 := (atFirst_iff t).mp h0
        rw [accAt_first m c t h0 h1 h2]
        unfold accFirst; (try dsimp only)
        rw [Phi_castSucc m c t, PhiS_zero m c _ _ hz, rest_eq]
        iintro ⟨⟨HS, Hg⟩, Ho, ⟨%d0, H0⟩, ⟨%d1, H1⟩, ⟨%d2, H2⟩⟩
        iapply ((runFirst c (grid0.coords t) _ _ _ _ _ _ _ _ h0 h1 h2 (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _)
          iexact Hg
        isplitl [Ho]; · iexact Ho
        isplitl [H0]; · iexact H0
        isplitl [H1]; · iexact H1
        iexists _; iexact H2
      · have hz : t.val ≠ 0 := fun h => h0 ((atFirst_iff t).mpr h)
        rw [accAt_upper m c t h0 h1 h2]
        unfold accUpper; (try dsimp only)
        rw [Phi_castSucc m c t, PhiS_pos m c _ _ hz]
        iintro ⟨⟨HS, Hg⟩, Ho, ⟨%d0, H0⟩, ⟨%d1, H1⟩, ⟨%d2, H2⟩⟩
        iapply ((runUpper c (grid0.coords t) _ _ _ _ _ _ _ _ h0 h1 h2 (iblk m c 0 t) (iblk m c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverUpper c _ _ _ _ _ _ _ _ _ _ _ _ _ _ _)
          iexact Hg
        isplitl [Ho]; · iexact Ho
        isplitl [H0]; · iexact H0
        isplitl [H1]; · iexact H1
        iexists _; iexact H2
  · have h0 : ¬atFirst (grid0.coords t) := fun h => h1 (upper_of_first t h)
    have h2 : ¬atLast (grid0.coords t) := fun h => h1 (upper_of_last t h)
    have hz : t.val ≠ 0 := fun h => h0 ((atFirst_iff t).mpr h)
    rw [Dat.leavesExact_idle (dats m 0 c) 2 t (idle_2 t h2) (noFlush_2 t h2)]
    rw [accAt_below m c t h0 h1]
    rw [Phi_castSucc m c t, PhiS_pos m c _ _ hz]
    iintro H
    iapply (runBelow c (grid0.coords t) _ _ _ _ _ _ _ _ h0 h1 h2 _ Set.univ _)
    isplitl [H]; · iexact H
    iintro ⟨⟨HS, Hg⟩, Ho, ⟨%d0, H0⟩, ⟨%d1, H1⟩, ⟨%d2, H2⟩⟩
    isplitl [HS Hg]
    · isplitl [HS]; · iexact HS
      iexact Hg
    isplitl [Ho]; · iexact Ho
    isplitl [H0]; · iexact H0
    isplitl [H1]; · iexact H1
    iexists _; iexact H2

/-- The library's body obligation, at every tile. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last tile the invariant gives the rest back, the accumulator's contents forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hN, rest_eq]
  iintro ⟨HS, Hg⟩
  isplitl [HS]
  · iexists _; iexact HS
  iexact Hg

/-! ## The run and the frame -/

set_option backward.isDefEq.respectTransparency.types false in
/-- Every weakly fair execution of the program ends, every array of the pipeline at what the proof data say and
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealCases.lean ====
/-
  The grid of the pairwise-penalty kernel is 16 x 16 tiles (i, j) of 512 x 512 pairs, visited row by row.
  The body has three guarded parts: at the first tile (i = 0 and j = 0) the 1 x 1 accumulator is zeroed; at a
  tile on or above the diagonal (j >= i) the tile's sum is added to the accumulator; at the last tile
  (i = 15 and j = 15) the accumulator is copied to the 1 x 1 output block.  This module names the three
  conditions, decides over the 256 tiles how they combine (the first and the last tile are on the diagonal,
  the first is not the last), and where the output window is idle (everywhere but at the last tile, the only
  tile after which its block is written back).
-/
import proofs.«162059_j3315714753089_1_alg».proof.Proof.Gen.KernelIdeal.Frame
import proofs.«162059_j3315714753089_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, from the tile's coordinates -/

/-- The first tile: `i = 0` and `j = 0`, as the body computes it. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- A tile on or above the diagonal: `j >= i` (signed), as the body computes it. -/
abbrev onUpper (i : grid0.Coords) : Prop :=
  (Scalar.cmpi .ne (Scalar.extui (Scalar.cmpi .sge (BitVec.ofNat 32 (i 1).val) (BitVec.ofNat 32 (i 0).val))) 0#32) = 1#1
/-- The last tile: `i = 15` and `j = 15`. -/
abbrev atLast (i : grid0.Coords) : Prop := k0_cond3 i = 1#1

/-- The first tile is the point 0. -/
theorem atFirst_iff : ∀ t : Fin cfg0.N, atFirst (grid0.coords t) ↔ t.val = 0 :=
  (by decide +kernel : ∀ t : Fin grid0.N, atFirst (grid0.coords t) ↔ t.val = 0)
/-- The last tile is the point 255. -/
theorem atLast_iff : ∀ t : Fin cfg0.N, atLast (grid0.coords t) ↔ t.val = 255 :=
  (by decide +kernel : ∀ t : Fin grid0.N, atLast (grid0.coords t) ↔ t.val = 255)
/-- A tile is on or above the diagonal when its column is at least its row. -/
theorem onUpper_iff : ∀ t : Fin cfg0.N, onUpper (grid0.coords t) ↔ t.val / 16 ≤ t.val % 16 :=
  (by decide +kernel : ∀ t : Fin grid0.N, onUpper (grid0.coords t) ↔ t.val / 16 ≤ t.val % 16)
/-- The first tile is on the diagonal. -/
theorem upper_of_first (t : Fin cfg0.N) (h : atFirst (grid0.coords t)) : onUpper (grid0.coords t) := by
  rw [onUpper_iff]; rw [atFirst_iff] at h; omega
/-- So is the last. -/
theorem upper_of_last (t : Fin cfg0.N) (h : atLast (grid0.coords t)) : onUpper (grid0.coords t) := by
  rw [onUpper_iff]; rw [atLast_iff] at h; omega
/-- The first tile is not the last. -/
theorem not_last_of_first (t : Fin cfg0.N) (h : atFirst (grid0.coords t)) : ¬atLast (grid0.coords t) := by
  rw [atLast_iff]; rw [atFirst_iff] at h; omega

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last tile the body stores nothing into the output block: the window is idle there, -/
theorem idle_2 : ∀ t : Fin cfg0.N, ¬atLast (grid0.coords t) → cfg0.idle 2 (grid0.coords t) = true := by decide +kernel
/-- and its block is not written back. -/
theorem noFlush_2 : ∀ t : Fin cfg0.N, ¬atLast (grid0.coords t) → (cfg0.win 2).flush t = false := by decide +kernel
/-- At the last tile it is live. -/
theorem live_2 : ∀ t : Fin cfg0.N, atLast (grid0.coords t) → cfg0.idle 2 (grid0.coords t) = false := by decide +kernel

/-! ## The memrefs the body is called with -/

/-- One staging buffer of the output window, through which its contents are stated. -/
abbrev outView : View sig .tc .vmem S1x1 .f32 := (Memref.whole cc0_stg2_0 : Memref sig .tc .vmem S1x1 .f32).view
abbrev stg0 (t : Fin cfg0.N) : Memref sig .tc .vmem S512x2 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S2x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1 .f32 := win0_2.stage (cfg0.slots t 2)
abbrev hstg2 (t : Fin cfg0.N) : (stg2 t).IsWhole := hstage0_2 ((cfg0.slots t 2).cast nbuf0_2)
/-- The accumulator: a whole scoped buffer of the kernel's own. -/
abbrev accM : Memref sig .tc .vmem S1x1 .f32 := Memref.whole cc0_scratch0
abbrev accView : View sig .tc .vmem S1x1 .f32 := accM.view

/-- What the region hands the body besides the windows: the accumulator at some contents, and the generator register. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.KernelIdealRunFirst.lean ====
/-
  The body at the first tile: the accumulator is zeroed, the tile's sum added to it, nothing stored into the
  output block.  The run names what the accumulator's buffer ends with: the two stores, last first.
-/
import proofs.«162059_j3315714753089_1_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first tile, on whole memrefs — the two input blocks at their contents, the output block at contents it
    hands back untouched, the accumulator at anything — the body runs to a state holding the inputs and the output as
    they were and the accumulator with its stores written (`LS`, found by the run). -/
noncomputable def runFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, fun xo E K => ?run⟩
  case run =>
    simp only [cc0__prox_kernel_eq_skeleton]; unfold cc0__prox_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KernelIdealRunUpper.lean ====
/-
  The body at a later tile on or above the diagonal that is not the last: the tile's sum is added to what the
  accumulator held, nothing stored into the output block.
-/
import proofs.«162059_j3315714753089_1_alg».proof.Proof.KernelIdealRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator enters at `xs` (what the tile before left) and ends with one store written. -/
noncomputable def runUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, fun xo E K => ?run⟩
  case run =>
    simp only [cc0__prox_kernel_eq_skeleton]; unfold cc0__prox_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KernelIdealRunBelow.lean ====
/-
  The body at a tile below the diagonal: none of the three parts runs, no buffer is touched.
-/
import proofs.«162059_j3315714753089_1_alg».proof.Proof.KernelIdealRunUpper

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Whatever the body is handed, it hands back. -/
theorem runBelow (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : ¬onUpper i) (h2 : ¬atLast i) (R : sProp 𝕄) (E : Set ℕ) (K : PUnit → sProp 𝕄) :
    iprop(R ∗ (R -∗ K ⟨⟩)) ⊢ wp frame (wpE (defs₀ (F := F)) Variants.none c none) E (cc0__prox_kernel i arg2 harg2 arg3 harg3 arg4 harg4 arg5 harg5) K := by
  simp only [cc0__prox_kernel_eq_skeleton]; unfold cc0__prox_kernel_skel
  iintro ⟨HR, Hk⟩
  sl_exec (disch := first | exact h0 | exact h1 | exact h2)
  sl_step
  iapply Hk
  iexact HR

end Cert.KernelIdeal.Body

end
-- ==== Proof.KernelIdealRunLast.lean ====
/-
  The body at the last tile: the tile's sum is added to the accumulator, and the accumulator copied into the
  output block.
-/
import proofs.«162059_j3315714753089_1_alg».proof.Proof.KernelIdealRunBelow

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The accumulator enters at `xs`, the output block at anything; both end with their stores written (`LS`, `LO`). -/
noncomputable def runLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__prox_kernel i arg2 harg2 arg3 harg3 arg4 harg4 arg5 harg5) K } := by
  refine ⟨?_, ?_, fun E K => ?run⟩
  case run =>
    simp only [cc0__prox_kernel_eq_skeleton]; unfold cc0__prox_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact h0 | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Body

end
-- ==== Proof.KernelIdealFrame.lean ====
/-
  The frame of the pairwise-penalty kernel's program: every weakly fair execution ends, faults nowhere and
  leaves the two argument arrays as they were.

  What the 1 x 1 accumulator holds after each tile is defined by recursion along the 256 tiles in the order
  the grid visits them (`accAt`): after the first tile what the first tile's run leaves; after a later tile on
  or above the diagonal what that tile's run leaves over the contents before it; after a tile below the
  diagonal what it held before.  The output block is stored at the last tile only (`outAt`).  With these as
  the proof data of the one pipeline, the body's triple at every tile is one of the four runs, chosen by the
  tile's three conditions.
-/
import proofs.«162059_j3315714753089_1_alg».proof.Proof.KernelIdealRunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- The first tile's two stores cover the accumulator. -/
theorem coverFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) (y : S1x1.Idx) :
    ∃ pc ∈ (runFirst c i arg2 harg2 arg3 harg3 arg4 harg4 arg5 harg5 h0 h1 h2 x0 x1).1, y ∈ pc.1.set :=
  View.cover_of_tiledL (runFirst c i arg2 harg2 arg3 harg3 arg4 harg4 arg5 harg5 h0 h1 h2 x0 x1).1 S1x1.size (by sl_kernel_rfl) y
/-- What the first tile leaves in the accumulator. -/
def accFirst (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) : Vec F S1x1 .f32 :=
  accView.read (Elt F) (accView.writes (Elt F) accView.junk (runFirst c i arg2 harg2 arg3 harg3 arg4 harg4 arg5 harg5 h0 h1 h2 x0 x1).1)

/-- A later upper tile's store covers the accumulator. -/
theorem coverUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) (y : S1x1.Idx) :
    ∃ pc ∈ (runUpper c i arg2 harg2 arg3 harg3 arg4 harg4 arg5 harg5 h0 h1 h2 x0 x1 xs).1, y ∈ pc.1.set :=
  View.cover_of_tiledL (runUpper c i arg2 harg2 arg3 harg3 arg4 harg4 arg5 harg5 h0 h1 h2 x0 x1 xs).1 S1x1.size (by sl_kernel_rfl) y
/-- What it leaves there. -/
def accUpper (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) : Vec F S1x1 .f32 :=
  accView.read (Elt F) (accView.writes (Elt F) accView.junk (runUpper c i arg2 harg2 arg3 harg3 arg4 harg4 arg5 harg5 h0 h1 h2 x0 x1 xs).1)

/-- The last tile's store covers the accumulator, -/
theorem coverLastAcc (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) (y : S1x1.Idx) :
    ∃ pc ∈ (runLast c i arg2 harg2 arg3 harg3 arg4 harg4 arg5 harg5 h0 h1 h2 x0 x1 xs).2.1, y ∈ pc.1.set :=
  View.cover_of_tiledL (runLast c i arg2 harg2 arg3 harg3 arg4 harg4 arg5 harg5 h0 h1 h2 x0 x1 xs).2.1 S1x1.size (by sl_kernel_rfl) y
/-- and its copy covers the output block. -/
theorem coverLastOut (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) (y : S1x1.Idx) :
    ∃ pc ∈ (runLast c i arg2 harg2 arg3 harg3 arg4 harg4 arg5 harg5 h0 h1 h2 x0 x1 xs).1, y ∈ pc.1.set :=
  View.cover_of_tiledL (runLast c i arg2 harg2 arg3 harg3 arg4 harg4 arg5 harg5 h0 h1 h2 x0 x1 xs).1 S1x1.size (by sl_kernel_rfl) y
/-- What the last tile leaves in the accumulator, -/
def accLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) : Vec F S1x1 .f32 :=
  accView.read (Elt F) (accView.writes (Elt F) accView.junk (runLast c i arg2 harg2 arg3 harg3 arg4 harg4 arg5 harg5 h0 h1 h2 x0 x1 xs).2.1)
/-- and in the output block. -/
def outLast (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) : Vec F S1x1 .f32 :=
  outView.read (Elt F) (outView.writes (Elt F) outView.junk (runLast c i arg2 harg2 arg3 harg3 arg4 harg4 arg5 harg5 h0 h1 h2 x0 x1 xs).1)

/-! ## The accumulator tile by tile -/

theorem not_first_succ (n : ℕ) (hn : n + 1 < cfg0.N) : ¬atFirst (grid0.coords ⟨n + 1, hn⟩) :=
  fun h => Nat.succ_ne_zero n ((atFirst_iff ⟨n + 1, hn⟩).mp h)

/-- The accumulator after the tile at position `n`. -/
def accAt (c : Dev nD) : (n : ℕ) → n < cfg0.N → Vec F S1x1 .f32
  | 0, hn => accFirst c (grid0.coords ⟨0, hn⟩) (stg0 ⟨0, hn⟩) (hstg0 ⟨0, hn⟩) (stg1 ⟨0, hn⟩) (hstg1 ⟨0, hn⟩) (stg2 ⟨0, hn⟩) (hstg2 ⟨0, hn⟩) accM (Memref.isWhole_whole _) ((atFirst_iff ⟨0, hn⟩).mpr rfl) (upper_of_first _ ((atFirst_iff ⟨0, hn⟩).mpr rfl)) (not_last_of_first _ ((atFirst_iff ⟨0, hn⟩).mpr rfl)) (iblk m c 0 ⟨0, hn⟩) (iblk m c 1 ⟨0, hn⟩)
  | n + 1, hn =>
    if h1 : onUpper (grid0.coords ⟨n + 1, hn⟩) then
      if h2 : atLast (grid0.coords ⟨n + 1, hn⟩) then
        accLast c (grid0.coords ⟨n + 1, hn⟩) (stg0 ⟨n + 1, hn⟩) (hstg0 ⟨n + 1, hn⟩) (stg1 ⟨n + 1, hn⟩) (hstg1 ⟨n + 1, hn⟩) (stg2 ⟨n + 1, hn⟩) (hstg2 ⟨n + 1, hn⟩) accM (Memref.isWhole_whole _) (not_first_succ n hn) h1 h2 (iblk m c 0 ⟨n + 1, hn⟩) (iblk m c 1 ⟨n + 1, hn⟩) (accAt c n (Nat.lt_of_succ_lt hn))
      else
        accUpper c (grid0.coords ⟨n + 1, hn⟩) (stg0 ⟨n + 1, hn⟩) (hstg0 ⟨n + 1, hn⟩) (stg1 ⟨n + 1, hn⟩) (hstg1 ⟨n + 1, hn⟩) (stg2 ⟨n + 1, hn⟩) (hstg2 ⟨n + 1, hn⟩) accM (Memref.isWhole_whole _) (not_first_succ n hn) h1 h2 (iblk m c 0 ⟨n + 1, hn⟩) (iblk m c 1 ⟨n + 1, hn⟩) (accAt c n (Nat.lt_of_succ_lt hn))
    else accAt c n (Nat.lt_of_succ_lt hn)

theorem pred_lt (t : Fin cfg0.N) : t.val - 1 < cfg0.N := Nat.lt_of_le_of_lt (Nat.sub_le _ _) t.isLt

theorem accAt_first (c : Dev nD) (t : Fin cfg0.N) (h0 : atFirst (grid0.coords t)) (h1 : onUpper (grid0.coords t)) (h2 : ¬atLast (grid0.coords t)) :
    accAt m c t.val t.isLt = accFirst c (grid0.coords t) (stg0 t) (hstg0 t) (stg1 t) (hstg1 t) (stg2 t) (hstg2 t) accM (Memref.isWhole_whole _) h0 h1 h2 (iblk m c 0 t) (iblk m c 1 t) := by
  obtain ⟨n, hn⟩ := t
  cases n with
  | zero => exact rfl
  | succ n => exact absurd h0 (not_first_succ n hn)

theorem accAt_upper (c : Dev nD) (t : Fin cfg0.N) (h0 : ¬atFirst (grid0.coords t)) (h1 : onUpper (grid0.coords t)) (h2 : ¬atLast (grid0.coords t)) :
    accAt m c t.val t.isLt = accUpper c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) := by
  obtain ⟨n, hn⟩ := t
  cases n with
  | zero => exact absurd ((atFirst_iff ⟨0, hn⟩).mpr rfl) h0
  | succ n => exact (dif_pos h1).trans ((dif_neg h2).trans rfl)

theorem accAt_last (c : Dev nD) (t : Fin cfg0.N) (h0 : ¬atFirst (grid0.coords t)) (h1 : onUpper (grid0.coords t)) (h2 : atLast (grid0.coords t)) :
    accAt m c t.val t.isLt = accLast c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) := by
  obtain ⟨n, hn⟩ := t
  cases n with
  | zero => exact absurd ((atFirst_iff ⟨0, hn⟩).mpr rfl) h0
  | succ n => exact (dif_pos h1).trans ((dif_pos h2).trans rfl)

theorem accAt_below (c : Dev nD) (t : Fin cfg0.N) (h0 : ¬atFirst (grid0.coords t)) (h1 : ¬onUpper (grid0.coords t)) :
    accAt m c t.val t.isLt = accAt m c (t.val - 1) (pred_lt t) := by
  obtain ⟨n, hn⟩ := t
  cases n with
  | zero => exact absurd ((atFirst_iff ⟨0, hn⟩).mpr rfl) h0
  | succ n => exact (dif_neg h1).trans rfl

/-- The output block after the tile `t`: at the last tile the accumulator's copy; elsewhere the block is idle and this value
    is consulted by nothing. -/
def outAt (c : Dev nD) (t : Fin cfg0.N) : Vec F S1x1 .f32 :=
  if h2 : atLast (grid0.coords t) then
    outLast c (grid0.coords t) (stg0 t) (hstg0 t) (stg1 t) (hstg1 t) (stg2 t) (hstg2 t) accM (Memref.isWhole_whole _) (fun h => not_last_of_first t h h2) (upper_of_last t h2) h2 (iblk m c 0 t) (iblk m c 1 t) (accAt m c (t.val - 1) (pred_lt t))
  else outView.read (Elt F) outView.junk

theorem outAt_last (c : Dev nD) (t : Fin cfg0.N) (h0 : ¬atFirst (grid0.coords t)) (h1 : onUpper (grid0.coords t)) (h2 : atLast (grid0.coords t)) :
    outAt m c t = outLast c (grid0.coords t) (stg0 t) (hstg0 t) (stg1 t) (hstg1 t) (stg2 t) (hstg2 t) accM (Memref.isWhole_whole _) h0 h1 h2 (iblk m c 0 t) (iblk m c 1 t) (accAt m c (t.val - 1) (pred_lt t)) :=
  (dif_pos h2).trans rfl

/-! ## The region's invariant and the proof data -/

/-- Before position `n`: at the start what the region hands the body; afterwards the accumulator at what the tile before left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any tile: the two input buffers hold their blocks; the tile's conditions select the run; the
    invariant hands the run the accumulator (at anything before the first tile, else at what the tile before left) and
    takes it back at this tile's contents; away from the last tile the idle output block is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  by_cases h1 : onUpper (grid0.coords t)
  · by_cases h2 : atLast (grid0.coords t)
    · have h0 : ¬atFirst (grid0.coords t) := fun h => not_last_of_first t h h2
      have hz : t.val ≠ 0 := fun h => h0 ((atFirst_iff t).mpr h)
      rw [show (dats m 0 c).leavesExact 2 t = owns (c : Thread nD τ) (stg2 t) fullShare ((dats m 0 c).after 2 t) from by
        unfold Dat.leavesExact; rw [live_2 t h2], after_2]
      rw [accAt_last m c t h0 h1 h2, outAt_last m c t h0 h1 h2]
      unfold accLast outLast; (try dsimp only)
      rw [Phi_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ h0 h1 h2 (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _ _)
    · rw [Dat.leavesExact_idle (dats m 0 c) 2 t (idle_2 t h2) (noFlush_2 t h2)]
      by_cases h0 : atFirst (grid0.coords t)
      · have hz : t.val = 0 := (atFirst_iff t).mp h0
        rw [accAt_first m c t h0 h1 h2]
        unfold accFirst; (try dsimp only)
        rw [Phi_castSucc m c t, PhiS_zero m c _ _ hz, rest_eq]
        iintro ⟨⟨HS, Hg⟩, Ho, ⟨%d0, H0⟩, ⟨%d1, H1⟩, ⟨%d2, H2⟩⟩
        iapply ((runFirst c (grid0.coords t) _ _ _ _ _ _ _ _ h0 h1 h2 (iblk m c 0 t) (iblk m c 1 t)).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _)
          iexact Hg
        isplitl [Ho]; · iexact Ho
        isplitl [H0]; · iexact H0
        isplitl [H1]; · iexact H1
        iexists _; iexact H2
      · have hz : t.val ≠ 0 := fun h => h0 ((atFirst_iff t).mpr h)
        rw [accAt_upper m c t h0 h1 h2]
        unfold accUpper; (try dsimp only)
        rw [Phi_castSucc m c t, PhiS_pos m c _ _ hz]
        iintro ⟨⟨HS, Hg⟩, Ho, ⟨%d0, H0⟩, ⟨%d1, H1⟩, ⟨%d2, H2⟩⟩
        iapply ((runUpper c (grid0.coords t) _ _ _ _ _ _ _ _ h0 h1 h2 (iblk m c 0 t) (iblk m c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (coverUpper c _ _ _ _ _ _ _ _ _ _ _ _ _ _ _)
          iexact Hg
        isplitl [Ho]; · iexact Ho
        isplitl [H0]; · iexact H0
        isplitl [H1]; · iexact H1
        iexists _; iexact H2
  · have h0 : ¬atFirst (grid0.coords t) := fun h => h1 (upper_of_first t h)
    have h2 : ¬atLast (grid0.coords t) := fun h => h1 (upper_of_last t h)
    have hz : t.val ≠ 0 := fun h => h0 ((atFirst_iff t).mpr h)
    rw [Dat.leavesExact_idle (dats m 0 c) 2 t (idle_2 t h2) (noFlush_2 t h2)]
    rw [accAt_below m c t h0 h1]
    rw [Phi_castSucc m c t, PhiS_pos m c _ _ hz]
    iintro H
    iapply (runBelow c (grid0.coords t) _ _ _ _ _ _ _ _ h0 h1 h2 _ Set.univ _)
    isplitl [H]; · iexact H
    iintro ⟨⟨HS, Hg⟩, Ho, ⟨%d0, H0⟩, ⟨%d1, H1⟩, ⟨%d2, H2⟩⟩
    isplitl [HS Hg]
    · isplitl [HS]; · iexact HS
      iexact Hg
    isplitl [Ho]; · iexact Ho
    isplitl [H0]; · iexact H0
    isplitl [H1]; · iexact H1
    iexists _; iexact H2

/-- The library's body obligation, at every tile. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last tile the invariant gives the rest back, the accumulator's contents forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hN, rest_eq]
  iintro ⟨HS, Hg⟩
  isplitl [HS]
  · iexists _; iexact HS
  iexact Hg

/-! ## The run and the frame -/

set_option backward.isDefEq.respectTransparency.types false in
/-- Every weakly fair execution of the program ends, every array of the pipeline at what the proof data say and
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealAcc.lean ====
/-
  What the accumulator holds, as the body's arithmetic.

  Each run's stores are read back: at the first tile the accumulator ends at the tile's payload over the zero block,
  at a later tile on or above the diagonal at the payload over what it held, and at the last tile the output block
  receives the accumulator's new contents.  So after position n the accumulator holds the running value
  (`running`): the payload folded over the upper tiles up to n, in the grid's order.
-/
import proofs.«162059_j3315714753089_1_alg».proof.Proof.KernelIdealFrame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- A later upper tile leaves the payload over what the accumulator held. -/
theorem accUpper_eq (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : ¬atLast i) (x0 : Vec F S512x2 .f32) (x1 : Vec F S2x512 .f32) (xs : Vec F S1x1 .f32) :
    accUpper c i arg2 harg2 arg3 harg3 arg4 harg4 arg5 harg5 h0 h1 h2 x0 x1 xs = k0_pay2 i x0 x1 xs := by
  unfold accUpper
  rw [View.read_writes_eq_canon _ _ _ (coverUpper c i arg2 harg2 arg3 harg3 arg4 harg4 arg5 harg5 h0 h1 h2 x0 x1 xs)]
  unfold runUpper
  dsimp only
  rw [View.canon_unit_zero hz]
  simp only [View.readAt_eq_ld, harg2.read_unread, harg3.read_unread, harg5.read_unread, View.ld_unit_zero (S := S512x2) hz,
    View.ld_unit_zero (S := S2x512) hz, View.ld_unit_zero (S := S1x1) hz]

/-- The first tile leaves the payload over the zero block it has just stored. -/
theorem accFirst_eq (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : atFirst i) (h1 : onUpper i) (h2 : ¬atLast i) (x0 : Vec F S512x2 .f32) (x1 : Vec F S2x512 .f32) :
    accFirst c i arg2 harg2 arg3 harg3 arg4 harg4 arg5 harg5 h0 h1 h2 x0 x1 = k0_pay2 i x0 x1 k0_pay1 := by
  unfold accFirst
  rw [View.read_writes_eq_canon _ _ _ (coverFirst c i arg2 harg2 arg3 harg3 arg4 harg4 arg5 harg5 h0 h1 h2 x0 x1)]
  unfold runFirst
  dsimp only
  sl_unfold_words
  rw [View.canon_cons_unit_zero (S := S1x1) hz, View.readCov_unit_zero (S := S1x1) _ hz]
  simp only [View.readAt_eq_ld, harg2.read_unread, harg3.read_unread, View.ld_unit_zero (S := S512x2) hz,
    View.ld_unit_zero (S := S2x512) hz]

/-- The last tile leaves the payload in the accumulator, -/
theorem accLast_eq (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) :
    accLast c i arg2 harg2 arg3 harg3 arg4 harg4 arg5 harg5 h0 h1 h2 x0 x1 xs = k0_pay2 i x0 x1 xs := by
  unfold accLast
  rw [View.read_writes_eq_canon _ _ _ (coverLastAcc c i arg2 harg2 arg3 harg3 arg4 harg4 arg5 harg5 h0 h1 h2 x0 x1 xs)]
  unfold runLast
  dsimp only
  sl_unfold_words
  rw [View.canon_unit_zero hz]
  simp only [View.readAt_eq_ld, harg2.read_unread, harg3.read_unread, harg5.read_unread, View.ld_unit_zero (S := S512x2) hz,
    View.ld_unit_zero (S := S2x512) hz, View.ld_unit_zero (S := S1x1) hz]

/-- and the same value in the output block. -/
theorem outLast_eq (c : Dev nD) (i : grid0.Coords) (arg2 : Memref sig .tc .vmem S512x2 .f32) (harg2 : arg2.IsWhole) (arg3 : Memref sig .tc .vmem S2x512 .f32) (harg3 : arg3.IsWhole) (arg4 : Memref sig .tc .vmem S1x1 .f32) (harg4 : arg4.IsWhole) (arg5 : Memref sig .tc .vmem S1x1 .f32) (harg5 : arg5.IsWhole)
    (h0 : ¬atFirst i) (h1 : onUpper i) (h2 : atLast i) (x0 : Vec F S512x2 .f32) (x1 : Vec F S2x512 .f32) (xs : Vec F S1x1 .f32) :
    outLast c i arg2 harg2 arg3 harg3 arg4 harg4 arg5 harg5 h0 h1 h2 x0 x1 xs = k0_pay2 i x0 x1 xs := by
  unfold outLast
  rw [View.read_writes_eq_canon _ _ _ (coverLastOut c i arg2 harg2 arg3 harg3 arg4 harg4 arg5 harg5 h0 h1 h2 x0 x1 xs)]
  unfold runLast
  dsimp only
  sl_unfold_words
  rw [View.canon_unit_zero hz, View.readCov_unit_zero (S := S1x1) _ hz]
  simp only [View.readAt_eq_ld, harg2.read_unread, harg3.read_unread, harg5.read_unread, View.ld_unit_zero (S := S512x2) hz,
    View.ld_unit_zero (S := S2x512) hz, View.ld_unit_zero (S := S1x1) hz]

/-- The running value after position `n`: the payload folded over the tiles on or above the diagonal, in order. -/
def running (c : Dev nD) : (n : ℕ) → n < cfg0.N → Vec F S1x1 .f32
  | 0, h => k0_pay2 (grid0.coords ⟨0, h⟩) (iblk m c 0 ⟨0, h⟩) (iblk m c 1 ⟨0, h⟩) k0_pay1
  | n + 1, h =>
    if onUpper (grid0.coords ⟨n + 1, h⟩) then
      k0_pay2 (grid0.coords ⟨n + 1, h⟩) (iblk m c 0 ⟨n + 1, h⟩) (iblk m c 1 ⟨n + 1, h⟩) (running c n (Nat.lt_of_succ_lt h))
    else running c n (Nat.lt_of_succ_lt h)

/-- The accumulator after position `n` holds the running value. -/
theorem accAt_eq (c : Dev nD) : ∀ (n : ℕ) (h : n < cfg0.N), accAt m c n h = running m c n h
  | 0, h => accFirst_eq ..
  | n + 1, h => by
    by_cases h1 : onUpper (grid0.coords ⟨n + 1, h⟩)
    · by_cases h2 : atLast (grid0.coords ⟨n + 1, h⟩)
      · refine (accAt_last m c ⟨n + 1, h⟩ (not_first_succ n h) h1 h2).trans ((accLast_eq ..).trans ?_)
        show k0_pay2 _ _ _ (accAt m c n _) = running m c (n + 1) h
        rw [accAt_eq c n]
        exact (if_pos h1).symm
      · refine (accAt_upper m c ⟨n + 1, h⟩ (not_first_succ n h) h1 h2).trans ((accUpper_eq ..).trans ?_)
        show k0_pay2 _ _ _ (accAt m c n _) = running m c (n + 1) h
        rw [accAt_eq c n]
        exact (if_pos h1).symm
    · refine (accAt_below m c ⟨n + 1, h⟩ (not_first_succ n h) h1).trans ?_
      show accAt m c n _ = running m c (n + 1) h
      rw [accAt_eq c n]
      exact (if_neg h1).symm

/-- The output block after the last tile holds the running value after the last tile. -/
theorem outAt_eq (c : Dev nD) (t : Fin cfg0.N) (h2 : atLast (grid0.coords t)) :
    outAt m c t = running m c t.val t.isLt := by
  have h0 : ¬atFirst (grid0.coords t) := fun h => not_last_of_first t h h2
  have h1 : onUpper (grid0.coords t) := upper_of_last t h2
  refine (outAt_last m c t h0 h1 h2).trans ((outLast_eq ..).trans ?_)
  rw [accAt_eq m c]
  obtain ⟨n, hn⟩ := t
  cases n with
  | zero => exact absurd ((atFirst_iff ⟨0, hn⟩).mpr rfl) h0
  | succ n => exact (if_pos h1).symm

end Cert.KernelIdeal.Body

end
-- ==== Proof.KernelIdealBlocks.lean ====
/-
  The two input blocks of a tile, read at an entry.

  Tile (i, j) is handed rows i * 512 .. i * 512 + 511 of the [8192, 2] array of points and columns
  j * 512 .. j * 512 + 511 of its [2, 8192] transpose, which the host forms before the region.  So entry (r, k) of
  the row block is coordinate k of point i * 512 + r, and entry (k, c) of the column block is coordinate k of point
  j * 512 + c.
-/
import proofs.«162059_j3315714753089_1_alg».proof.Proof.KernelIdealFrame
import Idealize.ShloMosaic.Lib.Pipeline.Value
import Idealize.ShloMosaic.Lib.ValueLayout
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The row block's index map: block `i` of the rows, the one block of the two columns. -/
theorem rowIndex : ∀ t : Fin cfg0.N, win0_0.index t (0 : Fin 2) = (grid0.coords t 0).val ∧ win0_0.index t (1 : Fin 2) = 0 :=
  (by decide +kernel : ∀ t : Fin grid0.N, win0_0.index t (0 : Fin 2) = (grid0.coords t 0).val ∧ win0_0.index t (1 : Fin 2) = 0)
/-- The column block's index map: the one block of the two rows, block `j` of the columns. -/
theorem colIndex : ∀ t : Fin cfg0.N, win0_1.index t (0 : Fin 2) = 0 ∧ win0_1.index t (1 : Fin 2) = (grid0.coords t 1).val :=
  (by decide +kernel : ∀ t : Fin grid0.N, win0_1.index t (0 : Fin 2) = 0 ∧ win0_1.index t (1 : Fin 2) = (grid0.coords t 1).val)
/-- The grid visits the tiles row by row. -/
theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The transpose the host forms before the region. -/
theorem V_transposed (c : Dev nD) :
    (V m c main_v4 : S2x8192.Idx → Elt F .f32)
      = transpose S2x8192 [1, 0] (m ((c : Thread nD τ).loc main_arg0)) transposes_S8192x2_S2x8192_1_0 := by
  show StableHlo.after hostOps0 (fun b => m (c, b)) (Proc.devRef .tc main_v4) = _
  after_results

/-- Entry (r, k) of tile `t`'s row block is coordinate `k` of the point `a` with `a = i * 512 + r`. -/
theorem rowBlock_apply (c : Dev nD) (t : Fin cfg0.N) (r : Fin 512) (k : Fin 2) (a : Fin 8192)
    (ha : a.val = (grid0.coords t 0).val * 512 + r.val) :
    iblk m c 0 t (ix2 r k) = m ((c : Thread nD τ).loc main_arg0) (ix2 a k) := by
  show V m c main_arg0 (((cfg0.win 0).blk t).view.emb (ix2 r k)) = _
  rw [V_main_arg0]
  refine congrArg _ (funext fun ax => Fin.ext ?_)
  match ax with
  | ⟨0, _⟩ =>
    show win0_0.index t 0 * 512 + 1 * r.val = a.val
    rw [(rowIndex t).1, ha]; omega
  | ⟨1, _⟩ =>
    show win0_0.index t 1 * 2 + 1 * k.val = k.val
    rw [(rowIndex t).2]; omega

/-- Entry (k, cc) of tile `t`'s column block is coordinate `k` of the point `b` with `b = j * 512 + cc`. -/
theorem colBlock_apply (c : Dev nD) (t : Fin cfg0.N) (k : Fin 2) (cc : Fin 512) (b : Fin 8192)
    (hb : b.val = (grid0.coords t 1).val * 512 + cc.val) :
    iblk m c 1 t (ix2 k cc) = m ((c : Thread nD τ).loc main_arg0) (ix2 b k) := by
  show V m c main_v4 (((cfg0.win 1).blk t).view.emb (ix2 k cc)) = _
  rw [V_transposed]
  refine Eq.trans (congrArg _ (funext fun ax => Fin.ext ?_)) (transpose_ix2_apply _ _ k b)
  match ax with
  | ⟨0, _⟩ =>
    show win0_1.index t 0 * 2 + 1 * k.val = k.val
    rw [(colIndex t).1]; omega
  | ⟨1, _⟩ =>
    show win0_1.index t 1 * 512 + 1 * cc.val = b.val
    rw [(colIndex t).2, hb]; omega

end Cert.KernelIdeal.Body

end
-- ==== Proof.Spec.lean ====
/-
  The proximity penalty as one function of the points, on the extended reals.

  A point is a row (x, y) of the [8192, 2] array.  Two points closer than the threshold t = f32(0.1) are
  charged max(t - dist, 0)^2, where dist = sqrt((x - x')^2 + (y - y')^2); every unordered pair is charged
  once, as the ordered pair (a, b) with a < b.
-/
import Idealize.ShloMosaic.PureOps.Ideal
import Idealize.ShloMosaic.Lib.ValueIdx

noncomputable section

open scoped BigOperators

namespace Cert.Prox

open Idealize.ShloMosaic Idealize.ShloMosaic.ValueIdx

/-- The threshold: the f32 word nearest to 0.1, the same word in both programs. -/
def thr : EReal := Ideal.ofBits .f32 0x3DCCCCCD#32

/-- The squared distance of the points (a, b) and (c, d), by differences. -/
def sqDist (a b c d : EReal) : EReal := (a - c) * (a - c) + (b - d) * (b - d)

/-- The hinge max(t - dist, 0), squared. -/
def pairPen (a b c d : EReal) : EReal :=
  max (thr - Ideal.sqrt (sqDist a b c d)) 0 * max (thr - Ideal.sqrt (sqDist a b c d)) 0

/-- The penalty summed over the ordered pairs a < b of the 8192 points. -/
def prox (P : Fin 8192 → Fin 2 → EReal) : EReal :=
  ∑ a : Fin 8192, ∑ b : Fin 8192, if a.val < b.val then pairPen (P a 0) (P a 1) (P b 0) (P b 1) else 0

/-- The rows of an [8192, 2] array. -/
def rows (x : (⟨2, ![8192, 2]⟩ : Shape).Idx → EReal) : Fin 8192 → Fin 2 → EReal := fun a k => x (ix2 a k)

end Cert.Prox

end
-- ==== Proof.PairAlgebra.lean ====
/-
  The algebra behind the pairwise penalty, on the extended reals.

  For points with real coordinates the expansion |p|^2 + |q|^2 - 2 p·q (each norm a sum started from the
  zero word, the factor the word for 2) is the squared distance by differences, (p0 - q0)^2 + (p1 - q1)^2.
  That is nonnegative, so clamping it below by zero changes nothing, and the hinge max(t - sqrt d, 0)^2 of the
  clamped expansion is the pair's penalty.
-/
import proofs.«162059_j3315714753089_1_alg».proof.Proof.Spec
import Idealize.ShloMosaic.PureOps.Ideal.Laws

noncomputable section

namespace Cert.ProxAlgebra

open Idealize.ShloMosaic Cert.Prox

/-- The word 0x40000000 denotes the real 2. -/
theorem ofBits_two : Ideal.ofBits .f32 0x40000000#32 = ((2 : ℝ) : EReal) := by
  simp [Ideal.ofBits, Ideal.ieee, -EReal.coe_mul]; norm_num

/-- |p|^2 + |q|^2 - 2 p·q, with each squared norm summed from the zero word, is the squared distance by
    differences when the four coordinates are real. -/
theorem gram_eq_sqDist (p0 p1 q0 q1 : ℝ) :
    Ideal.ofBits .f32 0x00000000#32 + ((p0 : EReal) * p0 + (p1 : EReal) * p1)
        + (Ideal.ofBits .f32 0x00000000#32 + ((q0 : EReal) * q0 + (q1 : EReal) * q1))
        - Ideal.ofBits .f32 0x40000000#32 * ((p0 : EReal) * q0 + (p1 : EReal) * q1)
      = sqDist p0 p1 q0 q1 := by
  rw [Ideal.ofBits_zero_f32, ofBits_two, zero_add, zero_add]
  unfold sqDist
  simp only [← EReal.coe_mul, ← EReal.coe_add, ← EReal.coe_sub]
  exact congrArg _ (by ring)

/-- The squared distance of two points with real coordinates is nonnegative. -/
theorem sqDist_nonneg (p0 p1 q0 q1 : ℝ) : (0 : EReal) ≤ sqDist p0 p1 q0 q1 := by
  unfold sqDist
  simp only [← EReal.coe_mul, ← EReal.coe_add, ← EReal.coe_sub]
  exact EReal.coe_nonneg.mpr (add_nonneg (mul_self_nonneg _) (mul_self_nonneg _))

/-- Clamping the expansion below by the zero word leaves the squared distance. -/
theorem clamp_gram (p0 p1 q0 q1 : ℝ) :
    max (Ideal.ofBits .f32 0x00000000#32 + ((p0 : EReal) * p0 + (p1 : EReal) * p1)
        + (Ideal.ofBits .f32 0x00000000#32 + ((q0 : EReal) * q0 + (q1 : EReal) * q1))
        - Ideal.ofBits .f32 0x40000000#32 * ((p0 : EReal) * q0 + (p1 : EReal) * q1))
      (Ideal.ofBits .f32 0x00000000#32) = sqDist p0 p1 q0 q1 := by
  rw [gram_eq_sqDist, Ideal.ofBits_zero_f32]
  exact max_eq_left (sqDist_nonneg p0 p1 q0 q1)

/-- The hinge of the threshold word against the root of a squared distance, clamped by the zero word and
    squared, is the pair's penalty. -/
theorem hinge_eq_pairPen (a b c d : EReal) :
    max (Ideal.ofBits .f32 0x3DCCCCCD#32 - Ideal.sqrt (sqDist a b c d)) (Ideal.ofBits .f32 0x00000000#32)
        * max (Ideal.ofBits .f32 0x3DCCCCCD#32 - Ideal.sqrt (sqDist a b c d)) (Ideal.ofBits .f32 0x00000000#32)
      = pairPen a b c d := by
  rw [Ideal.ofBits_zero_f32]
  rfl

end Cert.ProxAlgebra

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.TileTotal.lean ====
/-
  One tile of the pairwise penalty, read at the one entry of its 1 x 1 result.

  A tile (i, j) takes the row block i of the points ([512, 2]) and the column block j of their transpose ([2, 512]),
  forms the 512 x 512 matrix of hinge penalties max(t - dist, 0)^2 of row point against column point, keeps the
  entries whose global row number i * 512 + r is below the global column number j * 512 + c, sums each row, sums the
  row sums, and adds the total to the accumulator.
-/
import proofs.«162059_j3315714753089_1_alg».proof.Proof.Gen.KernelIdeal.Skeleton
import proofs.«162059_j3315714753089_1_alg».proof.Proof.PairAlgebra
import proofs.«162059_j3315714753089_1_alg».proof.Proof.LibKeepdims
import Idealize.ShloMosaic.Lib.ValueIdx
import Idealize.ShloMosaic.Lib.WordArith
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Tile

open Idealize.ShloMosaic Idealize.ShloMosaic.ValueIdx
open Cert.KernelIdeal Cert.KernelIdeal.Gen

/-- One pair of a tile: row `r` of the tile's row block against column `cc` of its column block, charged when the
    row's global number is below the column's. -/
def maskedPen (i : grid0.Coords) (x0 : Vec Ideal S512x2 .f32) (x1 : Vec Ideal S2x512 .f32) (r cc : Fin 512) : EReal :=
  if (i 0).val * 512 + r.val < (i 1).val * 512 + cc.val then
    Cert.Prox.pairPen (x0 (ix2 r 0)) (x0 (ix2 r 1)) (x1 (ix2 0 cc)) (x1 (ix2 1 cc)) else 0

/-- The sum over the columns of a 512 x 512 matrix, at row `r`. -/
theorem sumLast (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ f : Fin 512, src (ix2 r f) :=
  Cert.LibKeepdims.multiReduction_add_lastAxis_apply src 0x00000000#32 h hφ hacc r

/-- The sum down a column of 512 entries. -/
theorem sumFirst (src : FVec Ideal S512x1 .f32) (h : S512x1.Reduces [0] S1) (hφ : FKind.Formats .f32)
    (hacc : (0x00000000#32 : BitVec 32) = 0x00000000#32) :
    multiReduction .add [0] S1 src 0x00000000#32 h hφ hacc (ix1 0) = ∑ f : Fin 512, src (ix2 f 0) := by
  refine (Ideal.multiReduction_add_single src 0x00000000#32 h hφ hacc (ix1 0)).trans ?_
  exact Finset.sum_congr rfl fun f _ => congrArg src (funext fun d => Fin.ext (by
    match d with
    | ⟨0, _⟩ => rfl
    | ⟨1, _⟩ => rfl))

/-- The body's two reductions, the casts between them and the addition to the accumulator, read at the one entry:
    the accumulator's entry plus the total of the matrix. -/
theorem total_apply (M : FVec Ideal S512x512 .f32) (xs : Vec Ideal S1x1 .f32)
    (h1 : S512x512.Reduces [1] S512) (hφ : FKind.Formats .f32) (hacc : (0x00000000#32 : BitVec 32) = 0x00000000#32)
    (hc1 : S512.ShapeCasts S512x1) (h0 : S512x1.Reduces [0] S1) (hc0 : S1.ShapeCasts S1x1) (hcs : S1x1.ShapeCasts S1x1) :
    shapeCast S1x1 (addf xs (shapeCast S1x1 (multiReduction .add [0] S1 (shapeCast S512x1
        (multiReduction .add [1] S512 M 0x00000000#32 h1 hφ hacc) hc1) 0x00000000#32 h0 hφ hacc) hc0)) hcs (ix2 0 0)
      = xs (ix2 0 0) + ∑ r : Fin 512, ∑ cc : Fin 512, M (ix2 r cc) := by
  rw [shapeCast_self, addf_apply]
  congr 1
  refine (Cert.LibKeepdims.shapeCast_a_a1_apply _ hc0 0 0).trans ?_
  refine (sumFirst _ h0 hφ hacc).trans ?_
  refine Finset.sum_congr rfl fun r _ => ?_
  refine (Cert.LibKeepdims.shapeCast_a_a1_apply _ hc1 r 0).trans ?_
  exact sumLast M h1 hφ hacc r

/-! ## The mask word -/

theorem word_eq (a r : ℕ) :
    IntOp.addi (Scalar.muli (BitVec.ofNat 32 a) 512#32) (BitVec.ofNat 32 r) = BitVec.ofNat 32 (a * 512 + r) := by
  show BitVec.ofNat 32 a * BitVec.ofNat 32 512 + BitVec.ofNat 32 r = _
  rw [← BitVec.ofNat_mul, ← BitVec.ofNat_add]

/-- On words below 2^31 the signed comparison is the comparison of the numbers. -/
theorem slt_small (a b : ℕ) (ha : a < 2 ^ 31) (hb : b < 2 ^ 31) :
    (BitVec.ofNat 32 a).slt (BitVec.ofNat 32 b) = decide (a < b) := by
  rw [BitVec.slt_eq_decide, WordArith.toInt_ofNat_small a ha, WordArith.toInt_ofNat_small b hb]
  exact decide_eq_decide.mpr Int.ofNat_lt

/-- The tile's mask at (r, cc): row `a0 * 512 + r` against column `a1 * 512 + cc`, both below 8192. -/
theorem mask_apply (a0 a1 : ℕ) (h0 : a0 < 16) (h1 : a1 < 16) (r cc : Fin 512)
    (hi0 : S512x512.Iotas .tc 32 [0]) (hi1 : S512x512.Iotas .tc 32 [1]) :
    cmpi CmpIPredicate.slt
        (addi (broadcast S512x512 (Scalar.muli (BitVec.ofNat 32 a0) 512#32)) (iota Kind.tc S512x512 32 [0] hi0))
        (addi (broadcast S512x512 (Scalar.muli (BitVec.ofNat 32 a1) 512#32)) (iota Kind.tc S512x512 32 [1] hi1))
        (ix2 r cc)
      = BitVec.ofBool (decide (a0 * 512 + r.val < a1 * 512 + cc.val)) := by
  have e0 : iota Kind.tc S512x512 32 [0] hi0 (ix2 r cc) = BitVec.ofNat 32 r.val := iota_single_apply _ _ _ _ hi0 _
  have e1 : iota Kind.tc S512x512 32 [1] hi1 (ix2 r cc) = BitVec.ofNat 32 cc.val := iota_single_apply _ _ _ _ hi1 _
  show IntOp.cmpi .slt (IntOp.addi (Scalar.muli (BitVec.ofNat 32 a0) 512#32) (iota Kind.tc S512x512 32 [0] hi0 (ix2 r cc)))
      (IntOp.addi (Scalar.muli (BitVec.ofNat 32 a1) 512#32) (iota Kind.tc S512x512 32 [1] hi1 (ix2 r cc))) = _
  rw [e0, e1, word_eq, word_eq]
  show BitVec.ofBool ((BitVec.ofNat 32 (a0 * 512 + r.val)).slt (BitVec.ofNat 32 (a1 * 512 + cc.val))) = _
  have hr := r.isLt
  have hc := cc.isLt
  rw [slt_small _ _ (by omega) (by omega)]

/-- A select on a decided bit is the `if`. -/
theorem select_decide {α : Type} (P : Prop) [Decidable P] (a b : α) :
    Scalar.select (BitVec.ofBool (decide P)) a b = if P then a else b := by
  by_cases h : P
  · rw [decide_eq_true h, if_pos h]; exact select_one a b
  · rw [decide_eq_false h, if_neg h]; exact select_zero a b

theorem sqrt_apply {s : Shape} {φ : FTy} (a : FVec Ideal s φ) (i : s.Idx) : sqrt a i = Ideal.sqrt (a i) := rfl

/-! ## The tile's total -/

/-- What a tile adds: the accumulator's entry plus the masked penalties of the tile's 512 x 512 pairs — rows from the
    row block `x0` ([512, 2]: a point per row), columns from the column block `x1` ([2, 512]: a point per column). -/
theorem pay2_apply (i : grid0.Coords) (x0 : Vec Ideal S512x2 .f32) (x1 : Vec Ideal S2x512 .f32) (xs : Vec Ideal S1x1 .f32) :
    k0_pay2 (F := Ideal) i x0 x1 xs (ix2 0 0) = xs (ix2 0 0) + ∑ r : Fin 512, ∑ cc : Fin 512, maskedPen i x0 x1 r cc := by
  unfold k0_pay2
  dsimp only
  refine (total_apply _ xs _ _ _ _ _ _ _).trans ?_
  congr 1
  refine Finset.sum_congr rfl fun r _ => Finset.sum_congr rfl fun cc _ => ?_
  have eA : broadcastTo S512x512 (extractStridedSlice S512x1 ![0, 0] x0 slices_S512x2_o0_0_S512x1) broadcasts_S512x1_S512x512 (ix2 r cc)
      = x0 (ix2 r 0) :=
    (Cert.LibKeepdims.broadcastTo_a1_ac_apply _ _ r cc).trans (slice2_axis1_apply 0 x0 _ r 0 0 rfl)
  have eB : broadcastTo S512x512 (extractStridedSlice S512x1 ![0, 1] x0 slices_S512x2_o0_1_S512x1) broadcasts_S512x1_S512x512 (ix2 r cc)
      = x0 (ix2 r 1) :=
    (Cert.LibKeepdims.broadcastTo_a1_ac_apply _ _ r cc).trans (slice2_axis1_apply 1 x0 _ r 0 1 rfl)
  have eC : broadcastTo S512x512 (extractStridedSlice S1x512 ![0, 0] (shapeCast S2x512 x1 shapeCasts_S2x512_S2x512) slices_S2x512_o0_0_S1x512)
        broadcasts_S1x512_S512x512 (ix2 r cc) = x1 (ix2 0 cc) :=
    (broadcastTo_1b_ab_apply _ _ r cc).trans ((slice2_axis0_apply 0 _ _ 0 cc 0 rfl).trans (congrFun (shapeCast_self x1 _) _))
  have eD : broadcastTo S512x512 (extractStridedSlice S1x512 ![1, 0] (shapeCast S2x512 x1 shapeCasts_S2x512_S2x512) slices_S2x512_o1_0_S1x512)
        broadcasts_S1x512_S512x512 (ix2 r cc) = x1 (ix2 1 cc) :=
    (broadcastTo_1b_ab_apply _ _ r cc).trans ((slice2_axis0_apply 1 _ _ 0 cc 1 rfl).trans (congrFun (shapeCast_self x1 _) _))
  rw [select_apply, mask_apply (i 0).val (i 1).val (i 0).isLt (i 1).isLt r cc, select_decide]
  simp only [mulf_apply, maximumf_apply, subf_apply, addf_apply, sqrt_apply, broadcast_apply, eA, eB, eC, eD]
  unfold maskedPen
  refine if_congr Iff.rfl ?_ ?_
  · exact Cert.ProxAlgebra.hinge_eq_pairPen _ _ _ _
  · exact Ideal.ofBits_zero_f32

end Cert.KernelIdeal.Tile

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.UpperTiles.lean ====
/-
  The penalty over all ordered pairs, tile by tile.

  Cut the 8192 points into 16 blocks of 512.  The total over the ordered pairs a < b is the total, over the 16 x 16
  tiles (i, j), of the pairs with a in block i and b in block j.  A tile below the diagonal (j < i) holds no pair
  with a < b, so only the tiles with i <= j count; numbering the tiles row by row, k = i * 16 + j, these are the
  k with k / 16 <= k % 16.  Only commutativity and associativity of the sum are used: nothing needs the entries
  to be finite.
-/
import proofs.«162059_j3315714753089_1_alg».proof.Proof.Spec
import proofs.«162059_j3315714753089_1_alg».proof.Proof.LibBlockSum
import Mathlib.Algebra.BigOperators.Fin

noncomputable section

open scoped BigOperators

namespace Cert.Prox

open Idealize.ShloMosaic Idealize.ShloMosaic.ValueIdx

/-- The charge of the ordered pair (a, b): the pair's penalty when a < b, nothing otherwise. -/
def pairTerm (P : Fin 8192 → Fin 2 → EReal) (a b : Fin 8192) : EReal :=
  if a.val < b.val then pairPen (P a 0) (P a 1) (P b 0) (P b 1) else 0

theorem prox_eq (P : Fin 8192 → Fin 2 → EReal) : prox P = ∑ a : Fin 8192, ∑ b : Fin 8192, pairTerm P a b := rfl

/-- Point `r` of block `i`. -/
def pt (i : Fin 16) (r : Fin 512) : Fin 8192 := blockRow (T := 16) (B := 512) i r

theorem pt_val (i : Fin 16) (r : Fin 512) : (pt i r).val = i.val * 512 + r.val := rfl

/-- The total of tile (i, j). -/
def tileTotal (P : Fin 8192 → Fin 2 → EReal) (i j : Fin 16) : EReal :=
  ∑ r : Fin 512, ∑ cc : Fin 512, pairTerm P (pt i r) (pt j cc)

/-- A tile below the diagonal holds no pair a < b. -/
theorem tileTotal_below (P : Fin 8192 → Fin 2 → EReal) (i j : Fin 16) (h : j.val < i.val) : tileTotal P i j = 0 := by
  unfold tileTotal
  refine Finset.sum_eq_zero fun r _ => Finset.sum_eq_zero fun cc _ => ?_
  unfold pairTerm
  rw [if_neg]
  rw [pt_val, pt_val]
  have := r.isLt; have := cc.isLt
  omega

/-- All the tiles together hold every ordered pair once. -/
theorem sum_tiles (P : Fin 8192 → Fin 2 → EReal) : ∑ i : Fin 16, ∑ j : Fin 16, tileTotal P i j = prox P := by
  rw [prox_eq]
  refine Eq.symm ((sum_blockRows 16 512 fun a => ∑ b : Fin 8192, pairTerm P a b).trans ?_)
  refine Finset.sum_congr rfl fun i _ => ?_
  refine Eq.trans ?_ Finset.sum_comm
  refine Finset.sum_congr rfl fun r _ => ?_
  exact sum_blockRows 16 512 fun b => pairTerm P (blockRow i r) b

/-- Tile number `k` in row-major order: tile (k / 16, k % 16); nothing beyond the 256 tiles. -/
def tileN (P : Fin 8192 → Fin 2 → EReal) (k : ℕ) : EReal :=
  if h : k < 256 then tileTotal P ⟨k / 16, by omega⟩ ⟨k % 16, by omega⟩ else 0

/-- The tiles on or above the diagonal, taken in row-major order, hold every ordered pair once. -/
theorem sum_upper (P : Fin 8192 → Fin 2 → EReal) :
    ∑ k ∈ Finset.range 256, (if k / 16 ≤ k % 16 then tileN P k else 0) = prox P := by
  have hdrop : ∀ k ∈ Finset.range 256, (if k / 16 ≤ k % 16 then tileN P k else 0) = tileN P k := by
    intro k hk
    have hk' : k < 256 := Finset.mem_range.mp hk
    by_cases hle : k / 16 ≤ k % 16
    · rw [if_pos hle]
    · rw [if_neg hle]
      unfold tileN
      rw [dif_pos hk']
      exact (tileTotal_below P _ _ (by show k % 16 < k / 16; omega)).symm
  rw [Finset.sum_congr rfl hdrop, ← sum_tiles P]
  rw [← Fin.sum_univ_eq_sum_range (fun k => tileN P k) 256]
  refine ((sum_blockRows 16 16 fun t : Fin (16 * 16) => tileN P t.val).trans ?_)
  refine Finset.sum_congr rfl fun i _ => Finset.sum_congr rfl fun j _ => ?_
  have hi := i.isLt; have hj := j.isLt
  unfold tileN
  rw [dif_pos (by rw [blockRow_val]; omega)]
  congr 1
  · exact Fin.ext (by show (blockRow i j).val / 16 = i.val; rw [blockRow_val]; omega)
  · exact Fin.ext (by show (blockRow i j).val % 16 = j.val; rw [blockRow_val]; omega)

end Cert.Prox

end
-- ==== Proof.KernelIdealValue.lean ====
/-
  The value of the pairwise-penalty kernel's program at the ideal instance.

  The running value after each tile, read at its one entry, is the sum of the tiles' totals so far over the tiles on
  or above the diagonal; a tile's total, read off its two blocks, is the total of the pairs (a, b), a < b, with a in
  the tile's row block of points and b in its column block.  After the last tile this is the penalty over all ordered
  pairs.  The one write-back, after the last tile, puts it in the 1 x 1 result array; the host lines after the region
  recast it to a scalar and add the mean-square term computed before the region.
-/
import proofs.«162059_j3315714753089_1_alg».proof.Proof.KernelIdealAcc
import proofs.«162059_j3315714753089_1_alg».proof.Proof.KernelIdealBlocks
import proofs.«162059_j3315714753089_1_alg».proof.Proof.TileTotal
import proofs.«162059_j3315714753089_1_alg».proof.Proof.UpperTiles

set_option maxRecDepth 16384

noncomputable section

open scoped BigOperators

namespace Cert.KernelIdeal.Body

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Tile Cert.Prox

variable (m : (ℓ : Loc nD τ sig) → Buf (Elt Ideal) ℓ) (ρ : Dev nD → PrngReg)

/-- The points: the rows of core `c`'s first argument. -/
def pts (c : Dev nD) : Fin 8192 → Fin 2 → EReal :=
  Cert.Prox.rows (m ((c : Thread nD τ).loc main_arg0) : S8192x2.Idx → EReal)

/-- Tile `k`'s total, read off its two blocks, is the total of the tile's pairs of points. -/
theorem tile_eq (c : Dev nD) (k : ℕ) (h : k < cfg0.N) :
    ∑ r : Fin 512, ∑ cc : Fin 512, maskedPen (grid0.coords ⟨k, h⟩) (iblk m c 0 ⟨k, h⟩) (iblk m c 1 ⟨k, h⟩) r cc
      = tileN (pts m c) k := by
  have hk : k < 256 := lt_of_lt_of_eq h N_0
  have e0 : (grid0.coords ⟨k, h⟩ 0).val = k / 16 := (coords_eq ⟨k, h⟩).1
  have e1 : (grid0.coords ⟨k, h⟩ 1).val = k % 16 := (coords_eq ⟨k, h⟩).2
  unfold tileN
  rw [dif_pos hk]
  unfold tileTotal
  refine Finset.sum_congr rfl fun r _ => Finset.sum_congr rfl fun cc _ => ?_
  unfold maskedPen pairTerm
  rw [rowBlock_apply m c ⟨k, h⟩ r 0 (pt ⟨k / 16, by omega⟩ r) (by rw [pt_val, e0]),
    rowBlock_apply m c ⟨k, h⟩ r 1 (pt ⟨k / 16, by omega⟩ r) (by rw [pt_val, e0]),
    colBlock_apply m c ⟨k, h⟩ 0 cc (pt ⟨k % 16, by omega⟩ cc) (by rw [pt_val, e1]),
    colBlock_apply m c ⟨k, h⟩ 1 cc (pt ⟨k % 16, by omega⟩ cc) (by rw [pt_val, e1])]
  refine if_congr ?_ rfl rfl
  rw [pt_val, pt_val, e0, e1]

/-- What tile `k` contributes: its total when it is on or above the diagonal. -/
def contrib (c : Dev nD) (k : ℕ) : EReal := if k / 16 ≤ k % 16 then tileN (pts m c) k else 0

theorem zero_entry : (k0_pay1 (F := Ideal)) (ix2 0 0) = 0 := by
  unfold k0_pay1
  rw [shapeCast_self]
  exact Ideal.ofBits_zero_f32

theorem running_succ (c : Dev nD) (n : ℕ) (h : n + 1 < cfg0.N) :
    running m c (n + 1) h = if onUpper (grid0.coords ⟨n + 1, h⟩) then
      k0_pay2 (grid0.coords ⟨n + 1, h⟩) (iblk m c 0 ⟨n + 1, h⟩) (iblk m c 1 ⟨n + 1, h⟩) (running m c n (Nat.lt_of_succ_lt h))
    else running m c n (Nat.lt_of_succ_lt h) := rfl

/-- The running value after position `n`, at its one entry: the contributions of the tiles up to `n`. -/
theorem running_apply (c : Dev nD) : ∀ (n : ℕ) (h : n < cfg0.N),
    running m c n h (ix2 0 0) = ∑ k ∈ Finset.range (n + 1), contrib m c k
  | 0, h => by
    show k0_pay2 (F := Ideal) _ (iblk m c 0 ⟨0, h⟩) (iblk m c 1 ⟨0, h⟩) (k0_pay1 (F := Ideal)) (ix2 0 0) = _
    rw [pay2_apply, tile_eq m c 0 h, zero_entry, zero_add, Finset.sum_range_one]
    unfold contrib
    rw [if_pos (by decide)]
  | n + 1, h => by
    rw [Finset.sum_range_succ, ← running_apply c n (Nat.lt_of_succ_lt h), running_succ]
    by_cases h1 : onUpper (grid0.coords ⟨n + 1, h⟩)
    · rw [if_pos h1, pay2_apply, tile_eq m c (n + 1) h]
      unfold contrib
      rw [if_pos ((onUpper_iff ⟨n + 1, h⟩).mp h1)]
    · rw [if_neg h1]
      unfold contrib
      rw [if_neg (fun hle => h1 ((onUpper_iff ⟨n + 1, h⟩).mpr hle)), add_zero]

/-- The last position. -/
def tLast : Fin cfg0.N := ⟨255, by rw [show cfg0.N = 256 from N_0]; decide⟩

/-- The contents the result array ends with: the running value after the last tile. -/
abbrev result (c : Dev nD) : Buf (Elt Ideal) ((c : Thread nD τ).loc main_v5) := running m c tLast.val tLast.isLt

/-- Its one entry is the penalty over all ordered pairs of points. -/
theorem result_apply (c : Dev nD) : result m c (ix2 0 0) = prox (pts m c) :=
  (running_apply m c 255 tLast.isLt).trans (sum_upper (pts m c))

/-! ## The result array -/

/-- The one write-back, after the last tile, writes the running value: block (0, 0) of the 1 x 1 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 256 := N_0
  have h255 : t.val = 255 := by have := (flush0_2 t).mp hf; have := t.isLt; omega
  obtain rfl : t = tLast := Fin.ext h255
  show (cfg0.win 2).cut (grid0.coords tLast) ((dats m 0 c).after 2 tLast) = _
  rw [after_2, outAt_eq m c tLast ((atLast_iff tLast).mpr rfl)]
  have hz' : (fun a => win0_2.index tLast a * main_v5.ty.shape.size a) = fun _ => 0 := funext fun a => by fin_cases a <;> decide +kernel
  exact (Memref.read_access_unit_zero (Elt Ideal) main_v5 hz' (fun a => by rw [congrFun hz' a]; simp) (result m c)).symm

/-- So the result array ends holding the running value after the last tile. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v5).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-! ## The host lines after the region -/

/-- The mean-square term the host lines before the region compute, as the printed operations of the two arguments. -/
def mseVec (c : Dev nD) : FVec Ideal S_ .f32 :=
  Host.divf (Host.reduceAdd
      (mulf (subf (m ((c : Thread nD τ).loc main_arg0)) (m ((c : Thread nD τ).loc main_arg1)))
        (subf (m ((c : Thread nD τ).loc main_arg0)) (m ((c : Thread nD τ).loc main_arg1))))
      (constant (F := Ideal) S_ .f32 0x00000000#32) reducesTo_S8192x2_S_d0_1 h_S_)
    (constant (F := Ideal) S_ .f32 0x46800000#32)

/-- The region finds it in its buffer. -/
theorem mse_before (c : Dev nD) : (V m c main_v3 : S_.Idx → EReal) = mseVec m c := by
  show StableHlo.after hostOps0 (fun b => m (c, b)) (Proc.devRef .tc main_v3) = _
  after_results
  rfl

/-- The 1 x 1 array recast to a scalar reads its one entry. -/
theorem scalar_of_unit (x : S1x1.Idx → EReal) (h : S1x1.ShapeCasts S_) (j : S_.Idx) : shapeCast S_ x h j = x (ix2 0 0) :=
  shapeCast_apply x h j (ix2 0 0) (by
    have h1 : (S1x1.rowMajor (ix2 0 0)).val < 1 := (S1x1.rowMajor (ix2 0 0)).isLt
    have h2 : (S_.rowMajor j).val < 1 := (S_.rowMajor j).isLt
    omega)

/-- The program's result: the mean-square term plus the penalty over all ordered pairs of points. -/
def kval (c : Dev nD) : Buf (Elt Ideal) ((c.tc : Thread nD τ).loc main_v7) := fun _ => mseVec m c ix0 + prox (pts m c)

/-- The host lines after the region recast the result array to a scalar and add the mean-square term to it. -/
theorem tail_value (c : Dev nD) :
    Pipeline.afterTail₀ cfgs (dats m) 0 (V0 m) [hostOps1] c main_v7 = kval m c := by
  unfold Pipeline.afterTail₀
  simp only [List.flatten_cons, List.flatten_nil, List.append_nil]
  after_results
  have hA : Pipeline.withArrays (cfgs 0).spec c (V0 m c) (fun w => (dats m 0 c).arrAt w (cfgs 0).N) (Proc.devRef .tc main_v3)
      = mseVec m c :=
    (Pipeline.withArrays_of_ne _ c (V0 m c) _ main_v3 (by exact (by decide : ∀ w, Pipeline.arrRef spec0 w ≠ main_v3))).trans
      (mse_before m c)
  have hB : Pipeline.withArrays (cfgs 0).spec c (V0 m c) (fun w => (dats m 0 c).arrAt w (cfgs 0).N) (Proc.devRef .tc main_v5)
      = result m c :=
    (Pipeline.withArrays_arr spec0 launch0.win.arr_inj c _ _ 2).trans (final_out m c)
  rw [hA, hB]
  funext j
  obtain rfl : j = ix0 := eq_ix0 j
  show mseVec m c ix0 + shapeCast S_ (result m c) shapeCasts_S1x1_S_ ix0 = _
  rw [scalar_of_unit, result_apply]
  rfl

/-! ## The run, read -/

/-- Every weakly fair execution of the program ends with the result at `kval` and the two arguments unchanged. -/
theorem run : θ_run defs (onTc (τ := τ) (main (F := Ideal))) ⟨m, fun _ => 0, ρ⟩ (fun r => ∀ c : Dev nD,
      r.2.mem ((c.tc : Thread nD τ).loc main_v7) = kval m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.RefPairs.lean ====
/-
  The reference's masked penalty array, read at the pair (a, b).

  Row a of the [8192, 8192] arrays belongs to the first point and column b to the second: the squared norms are
  broadcast along rows and along columns, and the contraction pairs row a of the points with row b. The mask
  is the strict upper triangle, one exactly when a < b (the comparison "a + 0 >= b" selects zero, else one).
  On the triangle the entry is the hinge of the clamped expansion of the squared distance; off it the entry is
  the zero word, whatever the masked root was taken of.
-/
import proofs.«162059_j3315714753089_1_alg».proof.Proof.Gen.ReferenceIdeal.Read
import proofs.«162059_j3315714753089_1_alg».proof.Proof.PairAlgebra

noncomputable section

namespace Cert.ReferenceIdeal.RefPairs

open Cert.ReferenceIdeal Cert.ReferenceIdeal.Gen Cert.ReferenceIdeal.Read Idealize.ShloMosaic Idealize.ShloMosaic.ValueIdx
open Cert.Prox

/-! ## The triangle mask -/

/-- On words of 32 bits, for naturals below 8192, "a + 0 >= b" read signed is b ≤ a. -/
theorem sge_iff (a b : Nat) (ha : a < 8192) (hb : b < 8192) :
    IntOp.cmpi .sge (IntOp.addi (BitVec.ofNat 32 a) 0#32) (BitVec.ofNat 32 b) = 1#1 ↔ b ≤ a := by
  rw [IntOp.cmpi_sge]
  have e : IntOp.addi (BitVec.ofNat 32 a) 0#32 = BitVec.ofNat 32 a := BitVec.add_zero _
  rw [e, BitVec.toInt_eq_toNat_cond, BitVec.toInt_eq_toNat_cond, BitVec.toNat_ofNat, BitVec.toNat_ofNat]
  omega

/-- The mask at (a, b) is one when a < b … -/
theorem mask_of_lt (a b : Fin 8192) (h : a.val < b.val) : val_main_v17 (F := Ideal) (ix2 a b) = 1#1 := by
  rw [val_main_v17_apply, val_main_call0_v4_apply, val_main_call0_v2_apply, val_main_call0_v0_apply, val_main_call0_v1_apply,
    val_main_call0_c_apply, val_main_call0_v3_apply, val_main_call0_v5_apply, val_main_call0_c_0_apply, val_main_v16_apply,
    val_main_c_apply]
  show Scalar.select (IntOp.cmpi .sge (IntOp.addi (BitVec.ofNat 32 a.val) 0#32) (BitVec.ofNat 32 b.val)) 0#1 1#1 = 1#1
  have hne : ¬ IntOp.cmpi .sge (IntOp.addi (BitVec.ofNat 32 a.val) 0#32) (BitVec.ofNat 32 b.val) = 1#1 :=
    fun e => absurd ((sge_iff a.val b.val a.isLt b.isLt).1 e) (by omega)
  rw [eq_zero_of_ne_one hne, select_zero]

/-- … and zero otherwise. -/
theorem mask_of_not_lt (a b : Fin 8192) (h : ¬ a.val < b.val) : val_main_v17 (F := Ideal) (ix2 a b) = 0#1 := by
  rw [val_main_v17_apply, val_main_call0_v4_apply, val_main_call0_v2_apply, val_main_call0_v0_apply, val_main_call0_v1_apply,
    val_main_call0_c_apply, val_main_call0_v3_apply, val_main_call0_v5_apply, val_main_call0_c_0_apply, val_main_v16_apply,
    val_main_c_apply]
  show Scalar.select (IntOp.cmpi .sge (IntOp.addi (BitVec.ofNat 32 a.val) 0#32) (BitVec.ofNat 32 b.val)) 0#1 1#1 = 0#1
  rw [(sge_iff a.val b.val a.isLt b.isLt).2 (by omega), select_one]

/-! ## The clamped squared distance at (a, b) -/

/-- Where each operand of the expansion reads the points: rows a and b. -/
theorem idx_row (a b : Fin 8192) (k : Fin 2) : idx_main_v5 (idx_main_v6 (idx_main_v8 (ix2 a b))) k = ix2 a k :=
  funext fun d => Fin.ext (by match d with | ⟨0, _⟩ => rfl | ⟨1, _⟩ => rfl)
theorem idx_col (a b : Fin 8192) (k : Fin 2) : idx_main_v5 (idx_main_v7 (idx_main_v9 (ix2 a b))) k = ix2 b k :=
  funext fun d => Fin.ext (by match d with | ⟨0, _⟩ => rfl | ⟨1, _⟩ => rfl)
theorem idx_lhs (a b : Fin 8192) (k : Fin 2) : lidx_main_v12 (ix2 a b) k = ix2 a k :=
  funext fun d => Fin.ext (by match d with | ⟨0, _⟩ => rfl | ⟨1, _⟩ => rfl)
theorem idx_rhs (a b : Fin 8192) (k : Fin 2) : idx_main_v11 (ridx_main_v12 (ix2 a b) k) = ix2 b k :=
  funext fun d => Fin.ext (by match d with | ⟨0, _⟩ => rfl | ⟨1, _⟩ => rfl)

/-- For points with real coordinates the clamped expansion at (a, b) is the squared distance of rows a and b. -/
theorem clamped_apply (x : FVec Ideal S8192x2 .f32) (hfin : ∀ i, ∃ r : ℝ, x i = (r : EReal)) (a b : Fin 8192) :
    val_main_v19 (F := Ideal) x (ix2 a b)
      = sqDist (x (ix2 a 0)) (x (ix2 a 1)) (x (ix2 b 0)) (x (ix2 b 1)) := by
  rw [val_main_v19_apply, val_main_v18_apply, val_main_cst_3_apply,
    val_main_v15_apply, val_main_v10_apply, val_main_v8_apply, val_main_v6_apply, val_main_v5_apply,
    val_main_v9_apply, val_main_v7_apply, val_main_v5_apply, val_main_v14_apply, val_main_v13_apply, val_main_v12_apply]
  simp only [val_main_v4_apply, val_main_v11_apply, val_main_cst_1_apply, val_main_cst_2_apply, Fin.sum_univ_two,
    Ideal.addf_def, Ideal.subf_def, Ideal.mulf_def, Ideal.maximumf_def, Ideal.ofBits_def,
    idx_row, idx_col, idx_lhs, idx_rhs]
  obtain ⟨p0, e0⟩ := hfin (ix2 a 0)
  obtain ⟨p1, e1⟩ := hfin (ix2 a 1)
  obtain ⟨q0, f0⟩ := hfin (ix2 b 0)
  obtain ⟨q1, f1⟩ := hfin (ix2 b 1)
  rw [e0, e1, f0, f1]
  exact Cert.ProxAlgebra.clamp_gram p0 p1 q0 q1

/-! ## The masked penalty at (a, b) -/

/-- The summand of the reference's last reduce at (a, b): the pair's penalty on the strict upper triangle, zero off it. -/
theorem masked_apply (x : FVec Ideal S8192x2 .f32) (hfin : ∀ i, ∃ r : ℝ, x i = (r : EReal)) (a b : Fin 8192) :
    val_main_v27 (F := Ideal) x (ix2 a b)
      = if a.val < b.val then pairPen (x (ix2 a 0)) (x (ix2 a 1)) (x (ix2 b 0)) (x (ix2 b 1)) else 0 := by
  rw [val_main_v27_apply]
  by_cases h : a.val < b.val
  · rw [if_pos h, mask_of_lt a b h, select_one, val_main_v26_apply, val_main_v25_apply, val_main_v24_apply,
      val_main_cst_6_apply, val_main_v23_apply, val_main_v22_apply, val_main_cst_5_apply, val_main_v21_apply,
      val_main_v20_apply, mask_of_lt a b h, select_one, clamped_apply x hfin a b]
    simp only [Ideal.mulf_def, Ideal.maximumf_def, Ideal.subf_def, Ideal.ofBits_def, Ideal.hostUnary_sqrt_def]
    exact Cert.ProxAlgebra.hinge_eq_pairPen _ _ _ _
  · rw [if_neg h, mask_of_not_lt a b h, select_zero, val_main_call2_v1_apply, val_main_call2_v0_apply, val_main_cst_7_apply]
    exact Ideal.ofBits_zero_f32

end Cert.ReferenceIdeal.RefPairs

end
-- ==== Proof.RefValue.lean ====
/-
  The reference's result as one function of the two argument arrays.

  The result is a scalar: the mean square of the differences of the two arrays (kept here as the reference's own
  operations) plus the proximity penalty of the rows of the first array. The penalty is the reference's last
  reduce, over both axes of the masked [8192, 8192] array of pair penalties: the zero word plus the sum over all
  indices, which is the double sum over the row a (the first coordinate) and the column b (the second) of the
  masked entry at (a, b): the pair's penalty when a < b and zero otherwise.
-/
import proofs.«162059_j3315714753089_1_alg».proof.Proof.Gen.ReferenceIdeal.Read
import proofs.«162059_j3315714753089_1_alg».proof.Proof.RefPairs

noncomputable section

open scoped BigOperators

namespace Cert.ReferenceIdeal.RefValue

open Cert.ReferenceIdeal Cert.ReferenceIdeal.Gen Cert.ReferenceIdeal.Read Idealize.ShloMosaic Idealize.ShloMosaic.ValueIdx

/-- The last stage of the reference, for points with real coordinates: the mean-square term plus the penalty of the
    rows. -/
theorem stage_value (x q : FVec Ideal S8192x2 .f32) (hfin : ∀ i, ∃ r : ℝ, x i = (r : EReal)) :
    val_main_v29 (F := Ideal) x q
      = fun _ => (Host.divf (Host.reduceAdd (mulf (subf x q) (subf x q)) (constant S_ .f32 0x00000000#32) reducesTo_S8192x2_S_d0_1 h_S_) (constant S_ .f32 0x46800000#32)) ix0
          + Cert.Prox.prox (Cert.Prox.rows x) := by
  funext i
  obtain rfl : i = ix0 := eq_ix0 i
  rw [val_main_v29_apply, Ideal.addf_def, val_main_v28_apply, val_main_cst_8_apply, Ideal.ofBits_def,
    Ideal.ofBits_zero_f32, zero_add, sum_idx2]
  refine congrArg₂ (· + ·) rfl ?_
  show _ = ∑ a : Fin 8192, ∑ b : Fin 8192,
    if a.val < b.val then Cert.Prox.pairPen (x (ix2 a 0)) (x (ix2 a 1)) (x (ix2 b 0)) (x (ix2 b 1)) else 0
  exact Finset.sum_congr rfl fun a _ => Finset.sum_congr rfl fun b _ => RefPairs.masked_apply x hfin a b

/-- The term the reference's run states for its result, of arrays x and q with x's entries real, is the mean-square
    term plus the penalty of x's rows. -/
theorem ref_value (x q : FVec Ideal S8192x2 .f32) (hfin : ∀ i, ∃ r : ℝ, x i = (r : EReal)) :
    addf (Host.divf (Host.reduceAdd (mulf (subf x q) (subf x q)) (constant S_ .f32 0x00000000#32) reducesTo_S8192x2_S_d0_1 h_S_) (constant S_ .f32 0x46800000#32)) (Host.reduceAdd (select (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constantI S_ 1 0#1)) (broadcastInDim S8192x8192 ![] bcast_S_S8192x8192 (constantI S_ 1 1#1))) (mulf (maximumf (subf (broadcastInDim S8192x8192 ![] bcast_S_S8192x8192 (constant S_ .f32 0x3DCCCCCD#32)) (Host.sqrt (select (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constantI S_ 1 0#1)) (broadcastInDim S8192x8192 ![] bcast_S_S8192x8192 (constantI S_ 1 1#1))) (maximumf (subf (addf (broadcastInDim S8192x8192 ![0, 1] bcast_S8192x1_S8192x8192_0_1 (broadcastInDim S8192x1 ![0] bcast_S8192_S8192x1_0 (Host.reduceAdd (mulf x x) (constant S_ .f32 0x00000000#32) reducesTo_S8192x2_S8192_d1 h_S_))) (broadcastInDim S8192x8192 ![0, 1] bcast_S1x8192_S8192x8192_0_1 (broadcastInDim S1x8192 ![1] bcast_S8192_S1x8192_1 (Host.reduceAdd (mulf x x) (constant S_ .f32 0x00000000#32) reducesTo_S8192x2_S8192_d1 h_S_)))) (mulf (broadcastInDim S8192x8192 ![] bcast_S_S8192x8192 (constant S_ .f32 0x40000000#32)) (Host.dotGeneral dot_S8192x2_S2x8192_S8192x8192_1_0_0_1_n_n none x (transpose S2x8192 [1, 0] x transposes_S8192x2_S2x8192_1_0)))) (broadcastInDim S8192x8192 ![] bcast_S_S8192x8192 (constant S_ .f32 0x00000000#32))) (broadcastInDim S8192x8192 ![] bcast_S_S8192x8192 (id (constant S_ .f32 0x3F800000#32)))))) (broadcastInDim S8192x8192 ![] bcast_S_S8192x8192 (constant S_ .f32 0x00000000#32))) (maximumf (subf (broadcastInDim S8192x8192 ![] bcast_S_S8192x8192 (constant S_ .f32 0x3DCCCCCD#32)) (Host.sqrt (select (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constantI S_ 1 0#1)) (broadcastInDim S8192x8192 ![] bcast_S_S8192x8192 (constantI S_ 1 1#1))) (maximumf (subf (addf (broadcastInDim S8192x8192 ![0, 1] bcast_S8192x1_S8192x8192_0_1 (broadcastInDim S8192x1 ![0] bcast_S8192_S8192x1_0 (Host.reduceAdd (mulf x x) (constant S_ .f32 0x00000000#32) reducesTo_S8192x2_S8192_d1 h_S_))) (broadcastInDim S8192x8192 ![0, 1] bcast_S1x8192_S8192x8192_0_1 (broadcastInDim S1x8192 ![1] bcast_S8192_S1x8192_1 (Host.reduceAdd (mulf x x) (constant S_ .f32 0x00000000#32) reducesTo_S8192x2_S8192_d1 h_S_)))) (mulf (broadcastInDim S8192x8192 ![] bcast_S_S8192x8192 (constant S_ .f32 0x40000000#32)) (Host.dotGeneral dot_S8192x2_S2x8192_S8192x8192_1_0_0_1_n_n none x (transpose S2x8192 [1, 0] x transposes_S8192x2_S2x8192_1_0)))) (broadcastInDim S8192x8192 ![] bcast_S_S8192x8192 (constant S_ .f32 0x00000000#32))) (broadcastInDim S8192x8192 ![] bcast_S_S8192x8192 (id (constant S_ .f32 0x3F800000#32)))))) (broadcastInDim S8192x8192 ![] bcast_S_S8192x8192 (constant S_ .f32 0x00000000#32)))) (broadcastInDim S8192x8192 ![] bcast_S_S8192x8192 (id (constant S_ .f32 0x00000000#32)))) (constant S_ .f32 0x00000000#32) reducesTo_S8192x8192_S_d0_1 h_S_)
      = fun _ => (Host.divf (Host.reduceAdd (mulf (subf x q) (subf x q)) (constant S_ .f32 0x00000000#32) reducesTo_S8192x2_S_d0_1 h_S_) (constant S_ .f32 0x46800000#32)) ix0
          + Cert.Prox.prox (Cert.Prox.rows x) :=
  (val_main_v29_eq (F := Ideal) x q).trans (stage_value x q hfin)

end Cert.ReferenceIdeal.RefValue

end
-- ==== Proof.Finite.lean ====
/-
  Finite inputs: every entry of both argument arrays is a real number.

  The precondition is two reductions by "and", from the constant one, of the arrays of bits |v| < +inf, and their
  conjunction is stated to be one. A fold by "and" that ends at one met only ones, so at every index |v| < +inf
  holds on the extended reals, where |v| is max v (-v): v is neither infinity, hence a real.
-/
import proofs.«162059_j3315714753089_1_alg».proof.Defs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Idealize.SL.Sem

/-- The scalar shape has one index. -/
instance : Subsingleton Cert.Pre_finite_inputs.S_.Idx := ⟨fun _ _ => funext fun d => d.elim0⟩

/-- The word 0x7F800000 denotes +inf. -/
theorem ofBits_inf : Ideal.ofBits .f32 0x7F800000#32 = ⊤ := by
  simp [Ideal.ofBits, Ideal.ieee]

/-- An extended real whose absolute value max v (-v) compares below the word of +inf is a real. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => exact absurd h (by simp [Ideal.cmp])
  | coe r => exact ⟨r, rfl⟩
  | top => exact absurd h (by simp [Ideal.cmp])

/-- The printed predicate, at the extended reals, being one says that every entry of both arrays is a real. -/
theorem real_of_fn [Cert.Pre_finite_inputs.Facts] (x q : FVec Ideal Cert.Pre_finite_inputs.S8192x2 .f32)
    (h : Cert.Pre_finite_inputs.fn (F := Ideal) x q = (fun _ => 1#1)) :
    (∀ i, ∃ r : ℝ, x i = (r : EReal)) ∧ (∀ i, ∃ r : ℝ, q i = (r : EReal)) := by
  have h0 := congrFun h ix0
  dsimp only [Cert.Pre_finite_inputs.fn] at h0
  obtain ⟨h1, h2⟩ := IntOp.andi_eq_one.1 h0
  exact ⟨fun i => real_of_abs_lt_inf (x i) (Host.reduce_andi_all _ _ _ _ _ h1 i),
    fun i => real_of_abs_lt_inf (q i) (Host.reduce_andi_all _ _ _ _ _ h2 i)⟩

/-- From the reference's precondition: on every device the first argument array's entries are reals … -/
theorem finite_of_pre [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, ∃ r : ℝ, (m ((c.tc : Thread Cert.ReferenceIdeal.nD Cert.ReferenceIdeal.τ).loc Cert.ReferenceIdeal.main_arg0)) i = (r : EReal) :=
  (real_of_fn _ _ (h c)).1

/-- … and so are the second's. -/
theorem finite_of_pre_arg1 [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, ∃ r : ℝ, (m ((c.tc : Thread Cert.ReferenceIdeal.nD Cert.ReferenceIdeal.τ).loc Cert.ReferenceIdeal.main_arg1)) i = (r : EReal) :=
  (real_of_fn _ _ (h c)).2

/-- The same from the kernel's precondition, which is the same predicate of the kernel's argument arrays. -/
theorem finite_of_pre_kernel [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg1)) i = (r : EReal)) :=
  real_of_fn _ _ (h c)

end Cert.FiniteInputs

end
-- ==== Proof.lean ====
/-
  The certificate of the pairwise-penalty kernel against its jnp reference.

  Both programs compute mean((p - q)^2) + sum over the ordered pairs a < b of max(t - |p_a - p_b|, 0)^2 over 8192
  points of the plane, t the f32 word nearest 0.1.  The kernel walks the 16 x 16 grid of 512 x 512 tiles of pairs,
  skips the tiles below the diagonal, masks each remaining tile by "row number < column number", and adds each tile's
  total to a 1 x 1 accumulator that it copies out after the last tile; the squared distance is
  (x - x')^2 + (y - y')^2.  The reference forms the whole 8192 x 8192 matrix with the squared distance
  |p_a|^2 + |p_b|^2 - 2 p_a . p_b clamped at zero, masks it by the strict upper triangle and sums it at once.

  On the extended reals the two squared distances agree where the points are finite (the precondition), where the
  first is also nonnegative, so the clamp is the identity; a sum does not depend on how it is grouped into tiles;
  and a tile below the diagonal holds no pair a < b.  The mean-square term is the same host operations in both
  programs.  The three frames: the kernel's program at both instances by the body's triple at each tile under the
  three conditions of the tile, the reference by its run.  The idealization rewrote nothing.
-/
import proofs.«162059_j3315714753089_1_alg».proof.Defs
import proofs.«162059_j3315714753089_1_alg».proof.Proof.Gen.Kernel
import proofs.«162059_j3315714753089_1_alg».proof.Proof.Gen.KernelIdeal
import proofs.«162059_j3315714753089_1_alg».proof.Proof.Gen.ReferenceIdeal
import proofs.«162059_j3315714753089_1_alg».proof.Proof.Gen.ReferenceIdeal.Run
import proofs.«162059_j3315714753089_1_alg».proof.Proof.Gen.ReferenceIdeal.Read
import proofs.«162059_j3315714753089_1_alg».proof.Proof.Gen.Pre_finite_inputs
import proofs.«162059_j3315714753089_1_alg».proof.Proof.KernelFrame
import proofs.«162059_j3315714753089_1_alg».proof.Proof.KernelIdealValue
import proofs.«162059_j3315714753089_1_alg».proof.Proof.RefValue
import proofs.«162059_j3315714753089_1_alg».proof.Proof.Finite
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end at the mean-square term plus the penalty over the ordered pairs of the
    points, the kernel by its tiles and the reference by its one masked matrix, where the points are finite. -/
theorem algebraic : Cert.algebraic_KernelIdeal_ReferenceIdeal := by
  intro m ρ m' ρ' hpre hagree
  refine ⟨fun c => Cert.KernelIdeal.Body.kval m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_value _ _ (Cert.FiniteInputs.finite_of_pre_kernel m hpre c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
